-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x80x80x1 : Shape := ⟨4, ![4096, 80, 80, 1]⟩
abbrev S6400x1 : Shape := ⟨2, ![6400, 1]⟩
abbrev S1 : Shape := ⟨1, ![1]⟩
abbrev S1x518 : Shape := ⟨2, ![1, 518]⟩
abbrev S518 : Shape := ⟨1, ![518]⟩
abbrev S1x1 : Shape := ⟨2, ![1, 1]⟩
abbrev S1x80 : Shape := ⟨2, ![1, 80]⟩
abbrev S80 : Shape := ⟨1, ![80]⟩
abbrev S1x513 : Shape := ⟨2, ![1, 513]⟩
abbrev S513 : Shape := ⟨1, ![513]⟩
abbrev S_ : Shape := ⟨0, ![]⟩

class Facts : Prop where
  bcast_S_S4096x80x80x1 : S_.BroadcastsInDim S4096x80x80x1 (![] : Fin 0 → Fin S4096x80x80x1.rank)
  reducesTo_S4096x80x80x1_S_d0_1_2_3 : S4096x80x80x1.ReducesTo [0, 1, 2, 3] S_
  h_S_ : 0 < S_.numel
  bcast_S_S6400x1 : S_.BroadcastsInDim S6400x1 (![] : Fin 0 → Fin S6400x1.rank)
  reducesTo_S6400x1_S_d0_1 : S6400x1.ReducesTo [0, 1] S_
  bcast_S_S1 : S_.BroadcastsInDim S1 (![] : Fin 0 → Fin S1.rank)
  reducesTo_S1_S_d0 : S1.ReducesTo [0] S_
  bcast_S_S1x518 : S_.BroadcastsInDim S1x518 (![] : Fin 0 → Fin S1x518.rank)
  reducesTo_S1x518_S_d0_1 : S1x518.ReducesTo [0, 1] S_
  bcast_S_S518 : S_.BroadcastsInDim S518 (![] : Fin 0 → Fin S518.rank)
  reducesTo_S518_S_d0 : S518.ReducesTo [0] S_
  bcast_S_S1x1 : S_.BroadcastsInDim S1x1 (![] : Fin 0 → Fin S1x1.rank)
  reducesTo_S1x1_S_d0_1 : S1x1.ReducesTo [0, 1] S_
  bcast_S_S1x80 : S_.BroadcastsInDim S1x80 (![] : Fin 0 → Fin S1x80.rank)
  reducesTo_S1x80_S_d0_1 : S1x80.ReducesTo [0, 1] S_
  bcast_S_S80 : S_.BroadcastsInDim S80 (![] : Fin 0 → Fin S80.rank)
  reducesTo_S80_S_d0 : S80.ReducesTo [0] S_
  bcast_S_S1x513 : S_.BroadcastsInDim S1x513 (![] : Fin 0 → Fin S1x513.rank)
  reducesTo_S1x513_S_d0_1 : S1x513.ReducesTo [0, 1] S_
  bcast_S_S513 : S_.BroadcastsInDim S513 (![] : Fin 0 → Fin S513.rank)
  reducesTo_S513_S_d0 : S513.ReducesTo [0] S_

variable [Facts]

def fn_part3 {F : FTy → Type} [FloatOps F] (main_arg11 : FVec F S1x513 .f32) (main_arg12 : FVec F S513 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x513 .f32 := Host.absf main_arg11
  let main_cst_20 : FVec F S_ .f32 := constant S_ .f32 0x7F800000#32
  let main_v55 : FVec F S1x513 .f32 := broadcastInDim S1x513 ![] bcast_S_S1x513 main_cst_20
  let main_v56 : IVec S1x513 1 := cmpf .olt main_v54 main_v55
  let main_c_21 : IVec S_ 1 := constantI S_ 1 1#1
  let main_v57 : IVec S_ 1 := (fun x v => Host.reduce IntOp.andi x v reducesTo_S1x513_S_d0_1 h_S_) main_v56 main_c_21
  let main_v58 : IVec S_ 1 := andi main_v53 main_v57
  let main_v59 : FVec F S513 .f32 := Host.absf main_arg12
  let main_cst_22 : FVec F S_ .f32 := constant S_ .f32 0x7F800000#32
  let main_v60 : FVec F S513 .f32 := broadcastInDim S513 ![] bcast_S_S513 main_cst_22
  let main_v61 : IVec S513 1 := cmpf .olt main_v59 main_v60
  let main_c_23 : IVec S_ 1 := constantI S_ 1 1#1
  let main_v62 : IVec S_ 1 := (fun x v => Host.reduce IntOp.andi x v reducesTo_S513_S_d0 h_S_) main_v61 main_c_23
  let main_v63 : IVec S_ 1 := andi main_v58 main_v62
  main_v63

def fn_part2 {F : FTy → Type} [FloatOps F] (main_arg7 : FVec F S1x80 .f32) (main_arg8 : FVec F S80 .f32) (main_arg9 : FVec F S1x1 .f32) (main_arg10 : FVec F S1 .f32) (main_arg11 : FVec F S1x513 .f32) (main_arg12 : FVec F S513 .f32) (main_v33 : IVec S_ 1) : IVec S_ 1 :=
  let main_v34 : FVec F S1x80 .f32 := Host.absf main_arg7
  let main_cst_12 : FVec F S_ .f32 := constant S_ .f32 0x7F800000#32
  let main_v35 : FVec F S1x80 .f32 := broadcastInDim S1x80 ![] bcast_S_S1x80 main_cst_12
  let main_v36 : IVec S1x80 1 := cmpf .olt main_v34 main_v35
  let main_c_13 : IVec S_ 1 := constantI S_ 1 1#1
  let main_v37 : IVec S_ 1 := (fun x v => Host.reduce IntOp.andi x v reducesTo_S1x80_S_d0_1 h_S_) main_v36 main_c_13
  let main_v38 : IVec S_ 1 := andi main_v33 main_v37
  let main_v39 : FVec F S80 .f32 := Host.absf main_arg8
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  let main_v44 : FVec F S1x1 .f32 := Host.absf main_arg9
  let main_cst_16 : FVec F S_ .f32 := constant S_ .f32 0x7F800000#32
  let main_v45 : FVec F S1x1 .f32 := broadcastInDim S1x1 ![] bcast_S_S1x1 main_cst_16
  let main_v46 : IVec S1x1 1 := cmpf .olt main_v44 main_v45
  let main_c_17 : IVec S_ 1 := constantI S_ 1 1#1
  let main_v47 : IVec S_ 1 := (fun x v => Host.reduce IntOp.andi x v reducesTo_S1x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S518 .f32) (main_arg5 : FVec F S1x1 .f32) (main_arg6 : FVec F S1 .f32) (main_arg7 : FVec F S1x80 .f32) (main_arg8 : FVec F S80 .f32) (main_arg9 : FVec F S1x1 .f32) (main_arg10 : FVec F S1 .f32) (main_arg11 : FVec F S1x513 .f32) (main_arg12 : FVec F S513 .f32) (main_v13 : IVec S_ 1) (main_v16 : IVec S1x518 1) : IVec S_ 1 :=
  let main_c_5 : IVec S_ 1 := constantI S_ 1 1#1
  let main_v17 : IVec S_ 1 := (fun x v => Host.reduce IntOp.andi x v reducesTo_S1x518_S_d0_1 h_S_) main_v16 main_c_5
  let main_v18 : IVec S_ 1 := andi main_v13 main_v17
  let main_v19 : FVec F S518 .f32 := Host.absf main_arg4
  let main_cst_6 : FVec F S_ .f32 := constant S_ .f32 0x7F800000#32
  let main_v20 : FVec F S518 .f32 := broadcastInDim S518 ![] bcast_S_S518 main_cst_6
  let main_v21 : IVec S518 1 := cmpf .olt main_v19 main_v20
  let main_c_7 : IVec S_ 1 := constantI S_ 1 1#1
  let main_v22 : IVec S_ 1 := (fun x v => Host.reduce IntOp.andi x v reducesTo_S518_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x80x80x1 .f32) (main_arg1 : FVec F S6400x1 .f32) (main_arg2 : FVec F S1 .f32) (main_arg3 : FVec F S1x518 .f32) (main_arg4 : FVec F S518 .f32) (main_arg5 : FVec F S1x1 .f32) (main_arg6 : FVec F S1 .f32) (main_arg7 : FVec F S1x80 .f32) (main_arg8 : FVec F S80 .f32) (main_arg9 : FVec F S1x1 .f32) (main_arg10 : FVec F S1 .f32) (main_arg11 : FVec F S1x513 .f32) (main_arg12 : FVec F S513 .f32) : IVec S_ 1 :=
  let main_v0 : FVec F S4096x80x80x1 .f32 := Host.absf main_arg0
  let main_cst : FVec F S_ .f32 := constant S_ .f32 0x7F800000#32
  let main_v1 : FVec F S4096x80x80x1 .f32 := broadcastInDim S4096x80x80x1 ![] bcast_S_S4096x80x80x1 main_cst
  let main_v2 : IVec S4096x80x80x1 1 := cmpf .olt main_v0 main_v1
  let main_c : IVec S_ 1 := constantI S_ 1 1#1
  let main_v3 : IVec S_ 1 := (fun x v => Host.reduce IntOp.andi x v reducesTo_S4096x80x80x1_S_d0_1_2_3 h_S_) main_v2 main_c
  let main_v4 : FVec F S6400x1 .f32 := Host.absf main_arg1
  let main_cst_0 : FVec F S_ .f32 := constant S_ .f32 0x7F800000#32
  let main_v5 : FVec F S6400x1 .f32 := broadcastInDim S6400x1 ![] bcast_S_S6400x1 main_cst_0
  let main_v6 : IVec S6400x1 1 := cmpf .olt main_v4 main_v5
  let main_c_1 : IVec S_ 1 := constantI S_ 1 1#1
  let main_v7 : IVec S_ 1 := (fun x v => Host.reduce IntOp.andi x v reducesTo_S6400x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1x518 .f32 := Host.absf main_arg3
  let main_cst_4 : FVec F S_ .f32 := constant S_ .f32 0x7F800000#32
  let main_v15 : FVec F S1x518 .f32 := broadcastInDim S1x518 ![] bcast_S_S1x518 main_cst_4
  let main_v16 : IVec S1x518 1 := cmpf .olt main_v14 main_v15
  fn_part1 (F := F) main_arg4 main_arg5 main_arg6 main_arg7 main_arg8 main_arg9 main_arg10 main_arg11 main_arg12 main_v13 main_v16
-- ==== Kernel.lean ====
abbrev S4096x80x80x1 : Shape := ⟨4, ![4096, 80, 80, 1]⟩
abbrev S6400x1 : Shape := ⟨2, ![6400, 1]⟩
abbrev S1 : Shape := ⟨1, ![1]⟩
abbrev S1x518 : Shape := ⟨2, ![1, 518]⟩
abbrev S518 : Shape := ⟨1, ![518]⟩
abbrev S1x1 : Shape := ⟨2, ![1, 1]⟩
abbrev S1x80 : Shape := ⟨2, ![1, 80]⟩
abbrev S80 : Shape := ⟨1, ![80]⟩
abbrev S1x513 : Shape := ⟨2, ![1, 513]⟩
abbrev S513 : Shape := ⟨1, ![513]⟩
abbrev S4096x6400 : Shape := ⟨2, ![4096, 6400]⟩
abbrev S64x64x6400 : Shape := ⟨3, ![64, 64, 6400]⟩
abbrev S64x1x6400 : Shape := ⟨3, ![64, 1, 6400]⟩
abbrev S64x6400 : Shape := ⟨2, ![64, 6400]⟩
abbrev S1x6400 : Shape := ⟨2, ![1, 6400]⟩
abbrev S6400 : Shape := ⟨1, ![6400]⟩
abbrev S4x6400 : Shape := ⟨2, ![4, 6400]⟩
abbrev S72x6400 : Shape := ⟨2, ![72, 6400]⟩
abbrev S72x1 : Shape := ⟨2, ![72, 1]⟩
abbrev S1x70 : Shape := ⟨2, ![1, 70]⟩
abbrev S70 : Shape := ⟨1, ![70]⟩
abbrev S72x70 : Shape := ⟨2, ![72, 70]⟩
abbrev S_ : Shape := ⟨0, ![]⟩
abbrev S64x1 : Shape := ⟨2, ![64, 1]⟩
abbrev S64 : Shape := ⟨1, ![64]⟩
abbrev S64x80 : Shape := ⟨2, ![64, 80]⟩
abbrev S5120 : Shape := ⟨1, ![5120]⟩
abbrev S1x5120 : Shape := ⟨2, ![1, 5120]⟩
abbrev S80x5120 : Shape := ⟨2, ![80, 5120]⟩
abbrev S409600 : Shape := ⟨1, ![409600]⟩
abbrev S6 : Shape := ⟨1, ![6]⟩
abbrev S6x1 : Shape := ⟨2, ![6, 1]⟩
abbrev S6x513 : Shape := ⟨2, ![6, 513]⟩
abbrev S3078 : Shape := ⟨1, ![3078]⟩
abbrev S412742 : Shape := ⟨1, ![412742]⟩

abbrev nBuf : Space → Nat
  | .hbm => 115
  | .vmem => 4
  | .smem => 0
  | _ => 0

abbrev bufTy : (tb : Table) → Fin (tcTables nBuf tb) → BufTy
  | .hbm, ⟨0, _⟩ => ⟨S4096x80x80x1, .f32⟩
  | .hbm, ⟨1, _⟩ => ⟨S6400x1, .f32⟩
  | .hbm, ⟨2, _⟩ => ⟨S1, .f32⟩
  | .hbm, ⟨3, _⟩ => ⟨S1x518, .f32⟩
  | .hbm, ⟨4, _⟩ => ⟨S518, .f32⟩
  | .hbm, ⟨5, _⟩ => ⟨S1x1, .f32⟩
  | .hbm, ⟨6, _⟩ => ⟨S1, .f32⟩
  | .hbm, ⟨7, _⟩ => ⟨S1x80, .f32⟩
  | .hbm, ⟨8, _⟩ => ⟨S80, .f32⟩
  | .hbm, ⟨9, _⟩ => ⟨S1x1, .f32⟩
  | .hbm, ⟨10, _⟩ => ⟨S1, .f32⟩
  | .hbm, ⟨11, _⟩ => ⟨S1x513, .f32⟩
  | .hbm, ⟨12, _⟩ => ⟨S513, .f32⟩
  | .hbm, ⟨13, _⟩ => ⟨S4096x6400, .f32⟩
  | .hbm, ⟨14, _⟩ => ⟨S1x1, .f32⟩
  | .hbm, ⟨15, _⟩ => ⟨S64x64x6400, .f32⟩
  | .hbm, ⟨16, _⟩ => ⟨S64x1x6400, .f32⟩
  | .hbm, ⟨17, _⟩ => ⟨S64x6400, .f32⟩
  | .hbm, ⟨18, _⟩ => ⟨S1x6400, .f32⟩
  | .hbm, ⟨19, _⟩ => ⟨S6400, .f32⟩
  | .hbm, ⟨20, _⟩ => ⟨S1x6400, .f32⟩
  | .hbm, ⟨21, _⟩ => ⟨S6400, .f32⟩
  | .hbm, ⟨22, _⟩ => ⟨S1x6400, .f32⟩
  | .hbm, ⟨23, _⟩ => ⟨S6400, .f32⟩
  | .hbm, ⟨24, _⟩ => ⟨S1x6400, .f32⟩
  | .hbm, ⟨25, _⟩ => ⟨S6400, .f32⟩
  | .hbm, ⟨26, _⟩ => ⟨S1x6400, .f32⟩
  | .hbm, ⟨27, _⟩ => ⟨S1x6400, .f32⟩
  | .hbm, ⟨28, _⟩ => ⟨S1x6400, .f32⟩
  | .hbm, ⟨29, _⟩ => ⟨S1x6400, .f32⟩
  | .hbm, ⟨30, _⟩ => ⟨S4x6400, .f32⟩
  | .hbm, ⟨31, _⟩ => ⟨S1x6400, .f32⟩
  | .hbm, ⟨32, _⟩ => ⟨S4x6400, .f32⟩
  | .hbm, ⟨33, _⟩ => ⟨S72x6400, .f32⟩
  | .hbm, ⟨34, _⟩ => ⟨S72x1, .f32⟩
  | .hbm, ⟨35, _⟩ => ⟨S1x70, .f32⟩
  | .hbm, ⟨36, _⟩ => ⟨S70, .f32⟩
  | .hbm, ⟨37, _⟩ => ⟨S72x70, .f32⟩
  | .hbm, ⟨38, _⟩ => ⟨S1x70, .f32⟩
  | .hbm, ⟨39, _⟩ => ⟨S72x70, .f32⟩
  | .hbm, ⟨40, _⟩ => ⟨S72x70, .f32⟩
  | .hbm, ⟨41, _⟩ => ⟨S_, .f32⟩
  | .hbm, ⟨42, _⟩ => ⟨S72x70, .f32⟩
  | .hbm, ⟨43, _⟩ => ⟨S72x70, .f32⟩
  | .hbm, ⟨44, _⟩ => ⟨S64x1, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S64x1, .f32⟩
  | .hbm, ⟨56, _⟩ => ⟨S80, .f32⟩
  | .hbm, ⟨57, _⟩ => ⟨S1x80, .f32⟩
  | .hbm, ⟨58, _⟩ => ⟨S64x80, .f32⟩
  | .hbm, ⟨59, _⟩ => ⟨S64x80, .f32⟩
  | .hbm, ⟨60, _⟩ => ⟨S64x80, .f32⟩
  | .hbm, ⟨61, _⟩ => ⟨S1x80, .f32⟩
  | .hbm, ⟨62, _⟩ => ⟨S64x80, .f32⟩
  | .hbm, ⟨63, _⟩ => ⟨S64x80, .f32⟩
  | .hbm, ⟨64, _⟩ => ⟨S_, .f32⟩
  | .hbm, ⟨65, _⟩ => ⟨S64x80, .f32⟩
  | .hbm, ⟨66, _⟩ => ⟨S64x80, .f32⟩
  | .hbm, ⟨67, _⟩ => ⟨S5120, .f32⟩
  | .hbm, ⟨68, _⟩ => ⟨S1x5120, .f32⟩
  | .hbm, ⟨69, _⟩ => ⟨S80x5120, .f32⟩
  | .hbm, ⟨70, _⟩ => ⟨S409600, .f32⟩
  | .hbm, ⟨71, _⟩ => ⟨S_, .f32⟩
  | .hbm, ⟨72, _⟩ => ⟨S64, .f32⟩
  | .hbm, ⟨73, _⟩ => ⟨S1x1, .f32⟩
  | .hbm, ⟨74, _⟩ => ⟨S_, .f32⟩
  | .hbm, ⟨75, _⟩ => ⟨S1x1, .f32⟩
  | .hbm, ⟨76, _⟩ => ⟨S_, .f32⟩
  | .hbm, ⟨77, _⟩ => ⟨S1x1, .f32⟩
  | .hbm, ⟨78, _⟩ => ⟨S_, .f32⟩
  | .hbm, ⟨79, _⟩ => ⟨S1x1, .f32⟩
  | .hbm, ⟨80, _⟩ => ⟨S_, .f32⟩
  | .hbm, ⟨81, _⟩ => ⟨S1x1, .f32⟩
  | .hbm, ⟨82, _⟩ => ⟨S_, .f32⟩
  | .hbm, ⟨83, _⟩ => ⟨S1x1, .f32⟩
  | .hbm, ⟨84, _⟩ => ⟨S_, .f32⟩
  | .hbm, ⟨85, _⟩ => ⟨S1, .f32⟩
  | .hbm, ⟨86, _⟩ => ⟨S1, .f32⟩
  | .hbm, ⟨87, _⟩ => ⟨S1, .f32⟩
  | .hbm, ⟨88, _⟩ => ⟨S1, .f32⟩
  | .hbm, ⟨89, _⟩ => ⟨S1, .f32⟩
  | .hbm, ⟨90, _⟩ => ⟨S1, .f32⟩
  | .hbm, ⟨91, _⟩ => ⟨S6, .f32⟩
  | .hbm, ⟨92, _⟩ => ⟨S_, .f32⟩
  | .hbm, ⟨93, _⟩ => ⟨S6, .f32⟩
  | .hbm, ⟨94, _⟩ => ⟨S6, .f32⟩
  | .hbm, ⟨95, _⟩ => ⟨S_, .f32⟩
  | .hbm, ⟨96, _⟩ => ⟨S6, .f32⟩
  | .hbm, ⟨97, _⟩ => ⟨S6, .f32⟩
  | .hbm, ⟨98, _⟩ => ⟨S_, .f32⟩
  | .hbm, ⟨99, _⟩ => ⟨S6, .f32⟩
  | .hbm, ⟨100, _⟩ => ⟨S6, .f32⟩
  | .hbm, ⟨101, _⟩ => ⟨S6x1, .f32⟩
  | .hbm, ⟨102, _⟩ => ⟨S513, .f32⟩
  | .hbm, ⟨103, _⟩ => ⟨S1x513, .f32⟩
  | .hbm, ⟨104, _⟩ => ⟨S6x513, .f32⟩
  | .hbm, ⟨105, _⟩ => ⟨S6x513, .f32⟩
  | .hbm, ⟨106, _⟩ => ⟨S6x513, .f32⟩
  | .hbm, ⟨107, _⟩ => ⟨S1x513, .f32⟩
  | .hbm, ⟨108, _⟩ => ⟨S6x513, .f32⟩
  | .hbm, ⟨109, _⟩ => ⟨S6x513, .f32⟩
  | .hbm, ⟨110, _⟩ => ⟨S_, .f32⟩
  | .hbm, ⟨111, _⟩ => ⟨S6x513, .f32⟩
  | .hbm, ⟨112, _⟩ => ⟨S6x513, .f32⟩
  | .hbm, ⟨113, _⟩ => ⟨S3078, .f32⟩
  | .hbm, ⟨114, _⟩ => ⟨S412742, .f32⟩
  | .local _ .vmem, ⟨0, _⟩ => ⟨S72x6400, .f32⟩
  | .local _ .vmem, ⟨1, _⟩ => ⟨S6400x1, .f32⟩
  | .local _ .vmem, ⟨2, _⟩ => ⟨S1x1, .f32⟩
  | .local _ .vmem, ⟨3, _⟩ => ⟨S72x1, .f32⟩
  | _, _ => ⟨S4096x80x80x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_cst : Ref sig .tc := ⟨.hbm, 52, rfl⟩
abbrev main_call1_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call2_cst : Ref sig .tc := ⟨.hbm, 64, rfl⟩
abbrev main_call2_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_call3_cst : Ref sig .tc := ⟨.hbm, 98, rfl⟩
abbrev main_call3_v0 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_call4_cst : Ref sig .tc := ⟨.hbm, 110, rfl⟩
abbrev main_call4_v0 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S72x6400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6400x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S72x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S4096x80x80x1_S4096x6400 : S4096x80x80x1.ShapeCasts S4096x6400
  shapeCasts_S1_S1x1 : S1.ShapeCasts S1x1
  shapeCasts_S4096x6400_S64x64x6400 : S4096x6400.ShapeCasts S64x64x6400
  slices_S64x64x6400_S64x1x6400_0_0_0 : S64x64x6400.Slices ![0, 0, 0] S64x1x6400
  shapeCasts_S64x1x6400_S64x6400 : S64x1x6400.ShapeCasts S64x6400
  slices_S4096x6400_S1x6400_682_0 : S4096x6400.Slices ![682, 0] S1x6400
  shapeCasts_S1x6400_S6400 : S1x6400.ShapeCasts S6400
  slices_S4096x6400_S1x6400_1365_0 : S4096x6400.Slices ![1365, 0] S1x6400
  slices_S4096x6400_S1x6400_2730_0 : S4096x6400.Slices ![2730, 0] S1x6400
  slices_S4096x6400_S1x6400_3413_0 : S4096x6400.Slices ![3413, 0] S1x6400
  bcast_S6400_S1x6400_1 : S6400.BroadcastsInDim S1x6400 (![1] : Fin 1 → Fin S1x6400.rank)
  concatenates_S1x6400_S1x6400_S1x6400_S1x6400_S4x6400_d0 : Shape.Concatenates [S1x6400, S1x6400, S1x6400, S1x6400] S4x6400 0
  slices_S4096x6400_S1x6400_0_0 : S4096x6400.Slices ![0, 0] S1x6400
  bcast_S1x6400_S4x6400_0_1 : S1x6400.BroadcastsInDim S4x6400 (![0, 1] : Fin 2 → Fin S4x6400.rank)
  concatenates_S64x6400_S4x6400_S4x6400_S72x6400_d0 : Shape.Concatenates [S64x6400, S4x6400, S4x6400] S72x6400 0
  inb_S72x6400_S72x6400_0_0 : ∀ a, (![0, 0] : Fin 2 → Nat) a + S72x6400.size a ≤ S72x6400.size a
  h_S72x6400 : 0 < S72x6400.numel
  shapeCasts_S72x6400_S72x6400 : S72x6400.ShapeCasts S72x6400
  bitsLt_bf16_f32 : FTy.bits .bf16 < FTy.bits .f32
  inb_S6400x1_S6400x1_0_0 : ∀ a, (![0, 0] : Fin 2 → Nat) a + S6400x1.size a ≤ S6400x1.size a
  h_S6400x1 : 0 < S6400x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S72x1 : S1x1.Broadcasts S72x1
  inb_S72x1_S72x1_0_0 : ∀ a, (![0, 0] : Fin 2 → Nat) a + S72x1.size a ≤ S72x1.size a
  h_S72x1 : 0 < S72x1.numel
  slices_S1x518_S1x70_0_0 : S1x518.Slices ![0, 0] S1x70
  slices_S518_S70_0 : S518.Slices ![0] S70
  bcast_S70_S1x70_1 : S70.BroadcastsInDim S1x70 (![1] : Fin 1 → Fin S1x70.rank)
  bcast_S1x70_S72x70_0_1 : S1x70.BroadcastsInDim S72x70 (![0, 1] : Fin 2 → Fin S72x70.rank)
  bcast_S_S72x70 : S_.BroadcastsInDim S72x70 (![] : Fin 0 → Fin S72x70.rank)
  slices_S72x70_S64x1_0_1 : S72x70.Slices ![0, 1] S64x1
  shapeCasts_S64x1_S64 : S64x1.ShapeCasts S64
  shapeCasts_S1x1_S_ : S1x1.ShapeCasts S_
  bcast_S_S64 : S_.BroadcastsInDim S64 (![] : Fin 0 → Fin S64.rank)
  shapeCasts_S1_S_ : S1.ShapeCasts S_
  bcast_S64_S64x1_0 : S64.BroadcastsInDim S64x1 (![0] : Fin 1 → Fin S64x1.rank)
  shapeCasts_S1x80_S80 : S1x80.ShapeCasts S80
  bcast_S80_S1x80_1 : S80.BroadcastsInDim S1x80 (![1] : Fin 1 → Fin S1x80.rank)
  bcast_S64x1_S64x80_0_1 : S64x1.BroadcastsInDim S64x80 (![0, 1] : Fin 2 → Fin S64x80.rank)
  bcast_S1x80_S64x80_0_1 : S1x80.BroadcastsInDim S64x80 (![0, 1] : Fin 2 → Fin S64x80.rank)
  bcast_S_S64x80 : S_.BroadcastsInDim S64x80 (![] : Fin 0 → Fin S64x80.rank)
  shapeCasts_S64x80_S5120 : S64x80.ShapeCasts S5120
  shapeCasts_S5120_S1x5120 : S5120.ShapeCasts S1x5120
  bcast_S1x5120_S80x5120_0_1 : S1x5120.BroadcastsInDim S80x5120 (![0, 1] : Fin 2 → Fin S80x5120.rank)
  shapeCasts_S80x5120_S409600 : S80x5120.ShapeCasts S409600
  slices_S72x70_S1x1_0_65 : S72x70.Slices ![0, 65] S1x1
  slices_S72x70_S1x1_64_69 : S72x70.Slices ![64, 69] S1x1
  slices_S72x70_S1x1_65_67 : S72x70.Slices ![65, 67] S1x1
  slices_S72x70_S1x1_32_65 : S72x70.Slices ![32, 65] S1x1
  slices_S72x70_S1x1_66_69 : S72x70.Slices ![66, 69] S1x1
  slices_S72x70_S1x1_67_67 : S72x70.Slices ![67, 67] S1x1
  bcast_S_S1 : S_.BroadcastsInDim S1 (![] : Fin 0 → Fin S1.rank)
  concatenates_S1_S1_S1_S1_S1_S1_S6_d0 : Shape.Concatenates [S1, S1, S1, S1, S1, S1] S6 0
  bcast_S_S6 : S_.BroadcastsInDim S6 (![] : Fin 0 → Fin S6.rank)
  bcast_S6_S6x1_0 : S6.BroadcastsInDim S6x1 (![0] : Fin 1 → Fin S6x1.rank)
  shapeCasts_S1x513_S513 : S1x513.ShapeCasts S513
  bcast_S513_S1x513_1 : S513.BroadcastsInDim S1x513 (![1] : Fin 1 → Fin S1x513.rank)
  bcast_S6x1_S6x513_0_1 : S6x1.BroadcastsInDim S6x513 (![0, 1] : Fin 2 → Fin S6x513.rank)
  bcast_S1x513_S6x513_0_1 : S1x513.BroadcastsInDim S6x513 (![0, 1] : Fin 2 → Fin S6x513.rank)
  bcast_S_S6x513 : S_.BroadcastsInDim S6x513 (![] : Fin 0 → Fin S6x513.rank)
  shapeCasts_S6x513_S3078 : S6x513.ShapeCasts S3078
  concatenates_S409600_S64_S3078_S412742_d0 : Shape.Concatenates [S409600, S64, S3078] S412742 0
  dot_S72x6400_S6400x1_S72x1_1_0_0_1_n_n_wf : DotDims.WF S72x6400 S6400x1 S72x1 [1] [0] [0] [1] [] []
  dot_S72x1_S1x70_S72x70_1_0_0_1_n_n_wf : DotDims.WF S72x1 S1x70 S72x70 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S72x6400.size a ≤ S72x6400.size a
  hwx0_0 : ∀ i : grid0.Coords, EltTy.bits .f32 = 32 ∨ (Rect.block (s := S72x6400) S72x6400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S6400x1.size a
  hwx0_1 : ∀ i : grid0.Coords, EltTy.bits .f32 = 32 ∨ (Rect.block (s := S6400x1) S6400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S72x1.size a ≤ S72x1.size a
  hwx0_3 : ∀ i : grid0.Coords, EltTy.bits .f32 = 32 ∨ (Rect.block (s := S72x1) S72x1.size (cc0_transform_3 i) (hinb0_3 i)).WholeWords (EltTy.packing .f32)

variable [Facts₀]

def dot_S72x6400_S6400x1_S72x1_1_0_0_1_n_n : DotDims S72x6400 S6400x1 S72x1 where
  lhsContracting := [1]
  rhsContracting := [0]
  lhsNonContracting := [0]
  rhsNonContracting := [1]
  lhsBatch := []
  rhsBatch := []
  wf := dot_S72x6400_S6400x1_S72x1_1_0_0_1_n_n_wf
def dot_S72x1_S1x70_S72x70_1_0_0_1_n_n : DotDims S72x1 S1x70 S72x70 where
  lhsContracting := [1]
  rhsContracting := [0]
  lhsNonContracting := [0]
  rhsNonContracting := [1]
  lhsBatch := []
  rhsBatch := []
  wf := dot_S72x1_S1x70_S72x70_1_0_0_1_n_n_wf

abbrev win0_0 : Pipeline.Window sig grid0 :=
  Pipeline.Window.ofSpec (Memref.whole main_v20) S72x6400.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S72x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x80x80x1 : Shape := ⟨4, ![4096, 80, 80, 1]⟩
abbrev S6400x1 : Shape := ⟨2, ![6400, 1]⟩
abbrev S1 : Shape := ⟨1, ![1]⟩
abbrev S1x518 : Shape := ⟨2, ![1, 518]⟩
abbrev S518 : Shape := ⟨1, ![518]⟩
abbrev S1x1 : Shape := ⟨2, ![1, 1]⟩
abbrev S1x80 : Shape := ⟨2, ![1, 80]⟩
abbrev S80 : Shape := ⟨1, ![80]⟩
abbrev S1x513 : Shape := ⟨2, ![1, 513]⟩
abbrev S513 : Shape := ⟨1, ![513]⟩
abbrev S4096x6400 : Shape := ⟨2, ![4096, 6400]⟩
abbrev S4096x1 : Shape := ⟨2, ![4096, 1]⟩
abbrev S_ : Shape := ⟨0, ![]⟩
abbrev S4096x518 : Shape := ⟨2, ![4096, 518]⟩
abbrev S4096x64 : Shape := ⟨2, ![4096, 64]⟩
abbrev S64x4096 : Shape := ⟨2, ![64, 4096]⟩
abbrev S64x4096x1 : Shape := ⟨3, ![64, 4096, 1]⟩
abbrev S1x1x80 : Shape := ⟨3, ![1, 1, 80]⟩
abbrev S64x4096x80 : Shape := ⟨3, ![64, 4096, 80]⟩
abbrev S64x1x80 : Shape := ⟨3, ![64, 1, 80]⟩
abbrev S64x80 : Shape := ⟨2, ![64, 80]⟩
abbrev S5120 : Shape := ⟨1, ![5120]⟩
abbrev S1x5120 : Shape := ⟨2, ![1, 5120]⟩
abbrev S80x5120 : Shape := ⟨2, ![80, 5120]⟩
abbrev S409600 : Shape := ⟨1, ![409600]⟩
abbrev S64 : Shape := ⟨1, ![64]⟩
abbrev S4096x6 : Shape := ⟨2, ![4096, 6]⟩
abbrev S6x4096 : Shape := ⟨2, ![6, 4096]⟩
abbrev S6x4096x1 : Shape := ⟨3, ![6, 4096, 1]⟩
abbrev S1x1x513 : Shape := ⟨3, ![1, 1, 513]⟩
abbrev S6x4096x513 : Shape := ⟨3, ![6, 4096, 513]⟩
abbrev S6x1x513 : Shape := ⟨3, ![6, 1, 513]⟩
abbrev S6x513 : Shape := ⟨2, ![6, 513]⟩
abbrev S3078 : Shape := ⟨1, ![3078]⟩
abbrev S412742 : Shape := ⟨1, ![412742]⟩

abbrev nBuf : Space → Nat
  | .hbm => 86
  | .vmem => 0
  | .smem => 0
  | _ => 0

abbrev bufTy : (tb : Table) → Fin (tcTables nBuf tb) → BufTy
  | .hbm, ⟨0, _⟩ => ⟨S4096x80x80x1, .f32⟩
  | .hbm, ⟨1, _⟩ => ⟨S6400x1, .f32⟩
  | .hbm, ⟨2, _⟩ => ⟨S1, .f32⟩
  | .hbm, ⟨3, _⟩ => ⟨S1x518, .f32⟩
  | .hbm, ⟨4, _⟩ => ⟨S518, .f32⟩
  | .hbm, ⟨5, _⟩ => ⟨S1x1, .f32⟩
  | .hbm, ⟨6, _⟩ => ⟨S1, .f32⟩
  | .hbm, ⟨7, _⟩ => ⟨S1x80, .f32⟩
  | .hbm, ⟨8, _⟩ => ⟨S80, .f32⟩
  | .hbm, ⟨9, _⟩ => ⟨S1x1, .f32⟩
  | .hbm, ⟨10, _⟩ => ⟨S1, .f32⟩
  | .hbm, ⟨11, _⟩ => ⟨S1x513, .f32⟩
  | .hbm, ⟨12, _⟩ => ⟨S513, .f32⟩
  | .hbm, ⟨13, _⟩ => ⟨S4096x6400, .f32⟩
  | .hbm, ⟨14, _⟩ => ⟨S4096x1, .f32⟩
  | .hbm, ⟨15, _⟩ => ⟨S1x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x518, .f32⟩
  | .hbm, ⟨22, _⟩ => ⟨S1x518, .f32⟩
  | .hbm, ⟨23, _⟩ => ⟨S4096x518, .f32⟩
  | .hbm, ⟨24, _⟩ => ⟨S4096x518, .f32⟩
  | .hbm, ⟨25, _⟩ => ⟨S_, .f32⟩
  | .hbm, ⟨26, _⟩ => ⟨S4096x518, .f32⟩
  | .hbm, ⟨27, _⟩ => ⟨S4096x518, .f32⟩
  | .hbm, ⟨28, _⟩ => ⟨S4096x64, .f32⟩
  | .hbm, ⟨29, _⟩ => ⟨S64x4096, .f32⟩
  | .hbm, ⟨30, _⟩ => ⟨S_, .f32⟩
  | .hbm, ⟨31, _⟩ => ⟨S64x4096, .f32⟩
  | .hbm, ⟨32, _⟩ => ⟨S64x4096, .f32⟩
  | .hbm, ⟨33, _⟩ => ⟨S_, .f32⟩
  | .hbm, ⟨34, _⟩ => ⟨S64x4096, .f32⟩
  | .hbm, ⟨35, _⟩ => ⟨S64x4096, .f32⟩
  | .hbm, ⟨36, _⟩ => ⟨S_, .f32⟩
  | .hbm, ⟨37, _⟩ => ⟨S64x4096, .f32⟩
  | .hbm, ⟨38, _⟩ => ⟨S64x4096, .f32⟩
  | .hbm, ⟨39, _⟩ => ⟨S64x4096x1, .f32⟩
  | .hbm, ⟨40, _⟩ => ⟨S80, .f32⟩
  | .hbm, ⟨41, _⟩ => ⟨S1x1x80, .f32⟩
  | .hbm, ⟨42, _⟩ => ⟨S64x4096x80, .f32⟩
  | .hbm, ⟨43, _⟩ => ⟨S64x4096x80, .f32⟩
  | .hbm, ⟨44, _⟩ => ⟨S64x4096x80, .f32⟩
  | .hbm, ⟨45, _⟩ => ⟨S1x1x80, .f32⟩
  | .hbm, ⟨46, _⟩ => ⟨S64x4096x80, .f32⟩
  | .hbm, ⟨47, _⟩ => ⟨S64x4096x80, .f32⟩
  | .hbm, ⟨48, _⟩ => ⟨S_, .f32⟩
  | .hbm, ⟨49, _⟩ => ⟨S64x4096x80, .f32⟩
  | .hbm, ⟨50, _⟩ => ⟨S64x4096x80, .f32⟩
  | .hbm, ⟨51, _⟩ => ⟨S64x1x80, .f32⟩
  | .hbm, ⟨52, _⟩ => ⟨S64x80, .f32⟩
  | .hbm, ⟨53, _⟩ => ⟨S5120, .f32⟩
  | .hbm, ⟨54, _⟩ => ⟨S1x5120, .f32⟩
  | .hbm, ⟨55, _⟩ => ⟨S80x5120, .f32⟩
  | .hbm, ⟨56, _⟩ => ⟨S409600, .f32⟩
  | .hbm, ⟨57, _⟩ => ⟨S_, .f32⟩
  | .hbm, ⟨58, _⟩ => ⟨S64, .f32⟩
  | .hbm, ⟨59, _⟩ => ⟨S4096x6, .f32⟩
  | .hbm, ⟨60, _⟩ => ⟨S6x4096, .f32⟩
  | .hbm, ⟨61, _⟩ => ⟨S_, .f32⟩
  | .hbm, ⟨62, _⟩ => ⟨S6x4096, .f32⟩
  | .hbm, ⟨63, _⟩ => ⟨S6x4096, .f32⟩
  | .hbm, ⟨64, _⟩ => ⟨S_, .f32⟩
  | .hbm, ⟨65, _⟩ => ⟨S6x4096, .f32⟩
  | .hbm, ⟨66, _⟩ => ⟨S6x4096, .f32⟩
  | .hbm, ⟨67, _⟩ => ⟨S_, .f32⟩
  | .hbm, ⟨68, _⟩ => ⟨S6x4096, .f32⟩
  | .hbm, ⟨69, _⟩ => ⟨S6x4096, .f32⟩
  | .hbm, ⟨70, _⟩ => ⟨S6x4096x1, .f32⟩
  | .hbm, ⟨71, _⟩ => ⟨S513, .f32⟩
  | .hbm, ⟨72, _⟩ => ⟨S1x1x513, .f32⟩
  | .hbm, ⟨73, _⟩ => ⟨S6x4096x513, .f32⟩
  | .hbm, ⟨74, _⟩ => ⟨S6x4096x513, .f32⟩
  | .hbm, ⟨75, _⟩ => ⟨S6x4096x513, .f32⟩
  | .hbm, ⟨76, _⟩ => ⟨S1x1x513, .f32⟩
  | .hbm, ⟨77, _⟩ => ⟨S6x4096x513, .f32⟩
  | .hbm, ⟨78, _⟩ => ⟨S6x4096x513, .f32⟩
  | .hbm, ⟨79, _⟩ => ⟨S_, .f32⟩
  | .hbm, ⟨80, _⟩ => ⟨S6x4096x513, .f32⟩
  | .hbm, ⟨81, _⟩ => ⟨S6x4096x513, .f32⟩
  | .hbm, ⟨82, _⟩ => ⟨S6x1x513, .f32⟩
  | .hbm, ⟨83, _⟩ => ⟨S6x513, .f32⟩
  | .hbm, ⟨84, _⟩ => ⟨S3078, .f32⟩
  | .hbm, ⟨85, _⟩ => ⟨S412742, .f32⟩
  | _, _ => ⟨S4096x80x80x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_cst : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call2_cst : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call3_cst : Ref sig .tc := ⟨.hbm, 48, rfl⟩
abbrev main_call3_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call4_cst : Ref sig .tc := ⟨.hbm, 67, rfl⟩
abbrev main_call4_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call5_cst : Ref sig .tc := ⟨.hbm, 79, rfl⟩
abbrev main_call5_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  shapeCasts_S4096x80x80x1_S4096x6400 : S4096x80x80x1.ShapeCasts S4096x6400
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  bcast_S518_S1x518_1 : S518.BroadcastsInDim S1x518 (![1] : Fin 1 → Fin S1x518.rank)
  bcast_S1x518_S4096x518_0_1 : S1x518.BroadcastsInDim S4096x518 (![0, 1] : Fin 2 → Fin S4096x518.rank)
  bcast_S_S4096x518 : S_.BroadcastsInDim S4096x518 (![] : Fin 0 → Fin S4096x518.rank)
  slices_S4096x518_S4096x64_0_0 : S4096x518.Slices ![0, 0] S4096x64
  shapeCasts_S4096x64_S64x4096 : S4096x64.ShapeCasts S64x4096
  shapeCasts_S1x1_S_ : S1x1.ShapeCasts S_
  bcast_S_S64x4096 : S_.BroadcastsInDim S64x4096 (![] : Fin 0 → Fin S64x4096.rank)
  shapeCasts_S1_S_ : S1.ShapeCasts S_
  bcast_S64x4096_S64x4096x1_0_1 : S64x4096.BroadcastsInDim S64x4096x1 (![0, 1] : Fin 2 → Fin S64x4096x1.rank)
  shapeCasts_S1x80_S80 : S1x80.ShapeCasts S80
  bcast_S80_S1x1x80_2 : S80.BroadcastsInDim S1x1x80 (![2] : Fin 1 → Fin S1x1x80.rank)
  bcast_S64x4096x1_S64x4096x80_0_1_2 : S64x4096x1.BroadcastsInDim S64x4096x80 (![0, 1, 2] : Fin 3 → Fin S64x4096x80.rank)
  bcast_S1x1x80_S64x4096x80_0_1_2 : S1x1x80.BroadcastsInDim S64x4096x80 (![0, 1, 2] : Fin 3 → Fin S64x4096x80.rank)
  bcast_S_S64x4096x80 : S_.BroadcastsInDim S64x4096x80 (![] : Fin 0 → Fin S64x4096x80.rank)
  slices_S64x4096x80_S64x1x80_0_1_0 : S64x4096x80.Slices ![0, 1, 0] S64x1x80
  shapeCasts_S64x1x80_S64x80 : S64x1x80.ShapeCasts S64x80
  shapeCasts_S64x80_S5120 : S64x80.ShapeCasts S5120
  shapeCasts_S5120_S1x5120 : S5120.ShapeCasts S1x5120
  bcast_S1x5120_S80x5120_0_1 : S1x5120.BroadcastsInDim S80x5120 (![0, 1] : Fin 2 → Fin S80x5120.rank)
  shapeCasts_S80x5120_S409600 : S80x5120.ShapeCasts S409600
  bcast_S_S64 : S_.BroadcastsInDim S64 (![] : Fin 0 → Fin S64.rank)
  slices_S4096x518_S4096x6_0_64 : S4096x518.Slices ![0, 64] S4096x6
  shapeCasts_S4096x6_S6x4096 : S4096x6.ShapeCasts S6x4096
  bcast_S_S6x4096 : S_.BroadcastsInDim S6x4096 (![] : Fin 0 → Fin S6x4096.rank)
  bcast_S6x4096_S6x4096x1_0_1 : S6x4096.BroadcastsInDim S6x4096x1 (![0, 1] : Fin 2 → Fin S6x4096x1.rank)
  shapeCasts_S1x513_S513 : S1x513.ShapeCasts S513
  bcast_S513_S1x1x513_2 : S513.BroadcastsInDim S1x1x513 (![2] : Fin 1 → Fin S1x1x513.rank)
  bcast_S6x4096x1_S6x4096x513_0_1_2 : S6x4096x1.BroadcastsInDim S6x4096x513 (![0, 1, 2] : Fin 3 → Fin S6x4096x513.rank)
  bcast_S1x1x513_S6x4096x513_0_1_2 : S1x1x513.BroadcastsInDim S6x4096x513 (![0, 1, 2] : Fin 3 → Fin S6x4096x513.rank)
  bcast_S_S6x4096x513 : S_.BroadcastsInDim S6x4096x513 (![] : Fin 0 → Fin S6x4096x513.rank)
  slices_S6x4096x513_S6x1x513_0_1_0 : S6x4096x513.Slices ![0, 1, 0] S6x1x513
  shapeCasts_S6x1x513_S6x513 : S6x1x513.ShapeCasts S6x513
  shapeCasts_S6x513_S3078 : S6x513.ShapeCasts S3078
  concatenates_S409600_S64_S3078_S412742_d0 : Shape.Concatenates [S409600, S64, S3078] S412742 0
  dot_S4096x6400_S6400x1_S4096x1_1_0_0_1_n_n_wf : DotDims.WF S4096x6400 S6400x1 S4096x1 [1] [0] [0] [1] [] []
  dot_S4096x1_S1x518_S4096x518_1_0_0_1_n_n_wf : DotDims.WF S4096x1 S1x518 S4096x518 [1] [0] [0] [1] [] []

variable [Facts₀]

def dot_S4096x6400_S6400x1_S4096x1_1_0_0_1_n_n : DotDims S4096x6400 S6400x1 S4096x1 where
  lhsContracting := [1]
  rhsContracting := [0]
  lhsNonContracting := [0]
  rhsNonContracting := [1]
  lhsBatch := []
  rhsBatch := []
  wf := dot_S4096x6400_S6400x1_S4096x1_1_0_0_1_n_n_wf
def dot_S4096x1_S1x518_S4096x518_1_0_0_1_n_n : DotDims S4096x1 S1x518 S4096x518 where
  lhsContracting := [1]
  rhsContracting := [0]
  lhsNonContracting := [0]
  rhsNonContracting := [1]
  lhsBatch := []
  rhsBatch := []
  wf := dot_S4096x1_S1x518_S4096x518_1_0_0_1_n_n_wf

class Facts : Prop extends Facts₀ where

variable [Facts]
-- ==== Proof.FrameBitsA.lean ====
/-
  The frame of the program: @main is a stretch of host operations that gathers 72 rows of the flattened input,
  ONE kernel region on a grid of a single point (the 72 gathered rows against the weight column, plus the bias,
  clamped below at zero), and a long stretch of host operations that only read the region's result and the small
  weight arrays. The region's four windows each stage their whole array as one block; the body loads the three input
  blocks, computes one payload and stores it over the whole output block. Every weakly fair execution therefore runs to
  the end without a fault: the host stretches are straight lines over unscoped buffers, and the region is the library's
  pipeline run of a body whose triple is proved below. The argument arrays are written by no operation and staged only
  as inputs, so they end as launched; the final result is the later stretch's fold applied to the region's output array.
-/
import proofs.«170850_j55181739819745_2_alg».proof.Proof.Gen.Kernel.Launch
import proofs.«170850_j55181739819745_2_alg».proof.Proof.Gen.Kernel.Skeleton
import proofs.«170850_j55181739819745_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch contents after the gathering stretch. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- The stretches of host operations after the region, in order (a called function's operations a stretch of its own). -/
abbrev tailOps : List (List (HloOp τ sig (Elt F))) :=
  [hostOps1, hostOps1_1, hostOps1_2, hostOps1_3, hostOps1_4, hostOps1_5, hostOps1_6, hostOps1_7, hostOps1_8, hostOps1_9, hostOps1_10]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- @main reduces to the region continued by the later stretches, at the contents after the gathering stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- Each operation of a later stretch writes its own result buffer, which is none of the four staged arrays. -/
local macro "keeps_arrays" : tactic =>
  `(tactic| (simp only [List.Forall]
             repeat' apply And.intro
             all_goals (intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide))))

theorem hostOps1_keeps : (hostOps1 : List (HloOp τ sig (Elt F))).Forall fun op => ∀ w, Proc.devRef .tc (Pipeline.arrRef spec0 w) ∉ op.writes := by
  keeps_arrays
theorem hostOps1_1_keeps : (hostOps1_1 : List (HloOp τ sig (Elt F))).Forall fun op => ∀ w, Proc.devRef .tc (Pipeline.arrRef spec0 w) ∉ op.writes := by
  keeps_arrays
theorem hostOps1_2_keeps : (hostOps1_2 : List (HloOp τ sig (Elt F))).Forall fun op => ∀ w, Proc.devRef .tc (Pipeline.arrRef spec0 w) ∉ op.writes := by
  keeps_arrays
theorem hostOps1_3_keeps : (hostOps1_3 : List (HloOp τ sig (Elt F))).Forall fun op => ∀ w, Proc.devRef .tc (Pipeline.arrRef spec0 w) ∉ op.writes := by
  keeps_arrays
theorem hostOps1_4_keeps : (hostOps1_4 : List (HloOp τ sig (Elt F))).Forall fun op => ∀ w, Proc.devRef .tc (Pipeline.arrRef spec0 w) ∉ op.writes := by
  keeps_arrays
theorem hostOps1_5_keeps : (hostOps1_5 : List (HloOp τ sig (Elt F))).Forall fun op => ∀ w, Proc.devRef .tc (Pipeline.arrRef spec0 w) ∉ op.writes := by
  keeps_arrays
theorem hostOps1_6_keeps : (hostOps1_6 : List (HloOp τ sig (Elt F))).Forall fun op => ∀ w, Proc.devRef .tc (Pipeline.arrRef spec0 w) ∉ op.writes := by
  keeps_arrays
theorem hostOps1_7_keeps : (hostOps1_7 : List (HloOp τ sig (Elt F))).Forall fun op => ∀ w, Proc.devRef .tc (Pipeline.arrRef spec0 w) ∉ op.writes := by
  keeps_arrays
theorem hostOps1_8_keeps : (hostOps1_8 : List (HloOp τ sig (Elt F))).Forall fun op => ∀ w, Proc.devRef .tc (Pipeline.arrRef spec0 w) ∉ op.writes := by
  keeps_arrays
theorem hostOps1_9_keeps : (hostOps1_9 : List (HloOp τ sig (Elt F))).Forall fun op => ∀ w, Proc.devRef .tc (Pipeline.arrRef spec0 w) ∉ op.writes := by
  keeps_arrays
theorem hostOps1_10_keeps : (hostOps1_10 : List (HloOp τ sig (Elt F))).Forall fun op => ∀ w, Proc.devRef .tc (Pipeline.arrRef spec0 w) ∉ op.writes := by
  keeps_arrays

theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop

end Cert.Kernel.Frame

end
-- ==== Proof.FrameBitsArgs.lean ====
/-
  The argument arrays are written by no host operation: each operation writes its own result buffer, and the result
  buffers of the two stretches are listed below. A buffer outside a stretch's list keeps its contents through the stretch,
  so an argument that no window stages ends at its launch contents.
-/
import proofs.«170850_j55181739819745_2_alg».proof.Proof.FrameBitsA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffers of the gathering stretch, in order. -/
abbrev headWrites : List (Ref sig .tc) := [main_v0, main_v1, main_v2, main_v3, main_v4, main_v5, main_v6, main_v7, main_v8, main_v9, main_v10, main_v11, main_v12, main_v13, main_v14, main_v15, main_v16, main_v17, main_v18, main_v19, main_v20]
/-- The result buffers of the later stretches, in order. -/
abbrev tailWrites : List (Ref sig .tc) := [main_v22, main_v23, main_v24, main_v25, main_v26, main_v27, main_call0_cst, main_call0_v0, main_v28, main_v29, main_v30, main_v31, main_v32, main_v33, main_v34, main_v35, main_v36, main_call1_cst, main_call1_v0, main_v37, main_v38, main_v39, main_v40, main_v41, main_v42, main_v43, main_v44, main_v45, main_v46, main_call2_cst, main_call2_v0, main_v47, main_v48, main_v49, main_v50, main_v51, main_cst, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_call3_cst, main_call3_v0, main_v78, main_v79, main_v80, main_v81, main_v82, main_v83, main_v84, main_v85, main_v86, main_v87, main_call4_cst, main_call4_v0, main_v88, main_v89, main_v90]

local macro "writes_listed" : tactic =>
  `(tactic| (simp only [List.Forall, StableHlo.nullary_writes, StableHlo.unary_writes, StableHlo.binary_writes, StableHlo.ternary_writes, StableHlo.quaternary_writes, StableHlo.reshape_writes, StableHlo.nary_writes]
             repeat' apply And.intro
             all_goals exact Finset.singleton_subset_iff.mpr (List.mem_toFinset.mpr (List.mem_map_of_mem (by decide)))))

theorem head_writes : (List.flatten [hostOps0] : List (HloOp τ sig (Elt F))).Forall fun op =>
    op.writes ⊆ (headWrites.map (Proc.devRef (τ := τ) .tc)).toFinset := by
  simp only [hostOps0, List.flatten_cons, List.flatten_nil, List.append_nil, List.cons_append, List.nil_append]
  writes_listed

theorem tail_writes : (List.flatten tailOps : List (HloOp τ sig (Elt F))).Forall fun op =>
    op.writes ⊆ (tailWrites.map (Proc.devRef (τ := τ) .tc)).toFinset := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  writes_listed

/-- A buffer the gathering stretch does not write is found by the region as launched. -/
theorem V_of_not_written (c : Dev nD) (r : Ref sig .tc) (hr : r ∉ headWrites) : V m c r = m ((c : Thread nD τ).loc r) :=
  StableHlo.after_of_writes_sub _ _ head_writes hr

/-- A buffer that is no staged array and that the later stretches do not write ends as the region found it. -/
theorem W_of_not_written (dats : (p : Fin 1) → (c : Dev nD) → Dat τ (Elt F) Unit ℕ (UR sig nD τ) ℕ (cfgs p) c) (c : Dev nD)
    (r : Ref sig .tc) (hr : r ∉ tailWrites) (hne : ∀ w, Pipeline.arrRef spec0 w ≠ r) :
    Pipeline.afterTail₀ cfgs dats 0 (V0 m) tailOps c r = V m c r := by
  unfold Pipeline.afterTail₀
  rw [StableHlo.after_of_writes_sub _ _ tail_writes hr, Pipeline.withArrays_of_ne _ c (V0 m c) _ r hne]

/-- THE FRAME from a frame run to the library's post: the weight column is a staged input, which the data keep at its
    entry contents; every other argument is staged by no window and written by no operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(((h c).2 main_arg0 (Pipeline.mem_restRefs_of main_arg0 (by decide) (by decide))).trans ((W_of_not_written m dats c main_arg0 (by decide) (by decide)).trans (V_of_not_written m c main_arg0 (by decide)))),
    ((h c).1 1).trans (((dats 0 c).arrAt_in 1 rfl _).trans ((hA c 1).trans (V_of_not_written m c main_arg1 (by decide)))),
    (((h c).2 main_arg2 (Pipeline.mem_restRefs_of main_arg2 (by decide) (by decide))).trans ((W_of_not_written m dats c main_arg2 (by decide) (by decide)).trans (V_of_not_written m c main_arg2 (by decide)))),
    (((h c).2 main_arg3 (Pipeline.mem_restRefs_of main_arg3 (by decide) (by decide))).trans ((W_of_not_written m dats c main_arg3 (by decide) (by decide)).trans (V_of_not_written m c main_arg3 (by decide)))),
    (((h c).2 main_arg4 (Pipeline.mem_restRefs_of main_arg4 (by decide) (by decide))).trans ((W_of_not_written m dats c main_arg4 (by decide) (by decide)).trans (V_of_not_written m c main_arg4 (by decide)))),
    (((h c).2 main_arg5 (Pipeline.mem_restRefs_of main_arg5 (by decide) (by decide))).trans ((W_of_not_written m dats c main_arg5 (by decide) (by decide)).trans (V_of_not_written m c main_arg5 (by decide)))),
    (((h c).2 main_arg6 (Pipeline.mem_restRefs_of main_arg6 (by decide) (by decide))).trans ((W_of_not_written m dats c main_arg6 (by decide) (by decide)).trans (V_of_not_written m c main_arg6 (by decide)))),
    (((h c).2 main_arg7 (Pipeline.mem_restRefs_of main_arg7 (by decide) (by decide))).trans ((W_of_not_written m dats c main_arg7 (by decide) (by decide)).trans (V_of_not_written m c main_arg7 (by decide)))),
    (((h c).2 main_arg8 (Pipeline.mem_restRefs_of main_arg8 (by decide) (by decide))).trans ((W_of_not_written m dats c main_arg8 (by decide) (by decide)).trans (V_of_not_written m c main_arg8 (by decide)))),
    (((h c).2 main_arg9 (Pipeline.mem_restRefs_of main_arg9 (by decide) (by decide))).trans ((W_of_not_written m dats c main_arg9 (by decide) (by decide)).trans (V_of_not_written m c main_arg9 (by decide)))),
    (((h c).2 main_arg10 (Pipeline.mem_restRefs_of main_arg10 (by decide) (by decide))).trans ((W_of_not_written m dats c main_arg10 (by decide) (by decide)).trans (V_of_not_written m c main_arg10 (by decide)))),
    (((h c).2 main_arg11 (Pipeline.mem_restRefs_of main_arg11 (by decide) (by decide))).trans ((W_of_not_written m dats c main_arg11 (by decide) (by decide)).trans (V_of_not_written m c main_arg11 (by decide)))),
    (((h c).2 main_arg12 (Pipeline.mem_restRefs_of main_arg12 (by decide) (by decide))).trans ((W_of_not_written m dats c main_arg12 (by decide) (by decide)).trans (V_of_not_written m c main_arg12 (by decide))))⟩) h

end Cert.Kernel.Frame

end
-- ==== Proof.FrameBitsBody.lean ====
/-
  The region's body and the run. The body loads the three input blocks whole, computes ONE payload from them (the
  72 x 6400 block against the 6400 x 1 column on the matrix unit into a zero accumulator, plus the 1 x 1 bias spread down
  the column, clamped below at zero) and stores it over the whole 72 x 1 output block; its load of the output block
  before the store is never used. What the output window's staging buffer holds after the body is therefore the canon of
  that single store. The proof data say so at the one grid point, and the library's frame run around the region gives
  the post: every staged array at what the data compute, every other unscoped buffer at the later stretches' fold.
-/
import proofs.«170850_j55181739819745_2_alg».proof.Proof.FrameBitsA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data over the entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles: each access is the whole block -/

abbrev rX : Rect S72x6400 := Rect.unit (s := S72x6400) ![0, 0] S72x6400.size inb_S72x6400_S72x6400_0_0
abbrev rW : Rect S6400x1 := Rect.unit (s := S6400x1) ![0, 0] S6400x1.size inb_S6400x1_S6400x1_0_0
abbrev rB : Rect S1x1 := Rect.unit (s := S1x1) ![0, 0] S1x1.size inb_S1x1_S1x1_0_0
abbrev rH : Rect S72x1 := Rect.unit (s := S72x1) ![0, 0] S72x1.size inb_S72x1_S72x1_0_0

/-- The output window's staging buffer after the body: its one store, of the payload of the three loaded blocks. -/
def hidden (x0 : Vec F S72x6400 .f32) (x1 : Vec F S6400x1 .f32) (x2 : Vec F S1x1 .f32) : Vec F S72x1 .f32 :=
  View.canon [⟨rH, k0_pay1 (View.ld x0 rX) (View.ld x1 rW) (View.ld x2 rB)⟩]

/-- The one store covers the block. -/
theorem hidden_cover (p0 : Vec F S72x1 .f32) (y : S72x1.Idx) :
    ∃ pc ∈ ([⟨rH, p0⟩] : List (View.Piece (Elt F) S72x1 .f32)), y ∈ pc.1.set :=
  View.cover_of_tiled [⟨rH, p0⟩] S72x1.size (by rfl) y

/-! ## The body's triple -/

set_option maxHeartbeats 2000000 in
/-- On whole staging memrefs, the inputs' at contents `x0 x1 x2` and the output's at anything, the body runs to its
    continuation holding the inputs' as they were and the output's at `hidden x0 x1 x2`. -/
theorem sound_kernel (c : Dev nD) (E : Set ℕ) (i : grid0.Coords)
    (arg1 : Memref sig .tc .vmem S72x6400 .f32) (harg1 : arg1.IsWhole) (arg2 : Memref sig .tc .vmem S6400x1 .f32) (harg2 : arg2.IsWhole)
    (arg3 : Memref sig .tc .vmem S1x1 .f32) (harg3 : arg3.IsWhole) (arg4 : Memref sig .tc .vmem S72x1 .f32) (harg4 : arg4.IsWhole)
    (x0 : Vec F S72x6400 .f32) (x1 : Vec F S6400x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (hidden x0 x1 x2)) -∗ K ⟨⟩))
      ⊢ wp frame (wpE (defs₀ (F := F)) Variants.none c none) E (cc0__h1_kernel i arg1 harg1 arg2 harg2 arg3 harg3 arg4 harg4) K := by
  simp only [cc0__h1_kernel_eq_skeleton]; unfold cc0__h1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (hidden_cover _)

/-! ## The proof data -/

/-- The arrays as the region finds them; after the body each input's buffer at its block and the output's at `hidden`
    of the input blocks; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hidden (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = hidden (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, every staged array ending at
    what the proof data compute and every other unscoped buffer as the later stretches leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

end Cert.Kernel.Frame

end
-- ==== Proof.FrameBits.lean ====
/-
  The frame claim of the program at any float instance: every weakly fair execution of @main terminates without a
  fault and the thirteen argument arrays end as launched (the run of the region and its two host stretches, read at the
  argument buffers).
-/
import proofs.«170850_j55181739819745_2_alg».proof.Proof.FrameBitsArgs
import proofs.«170850_j55181739819745_2_alg».proof.Proof.FrameBitsBody

noncomputable section

namespace Cert.Kernel.Frame

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Frame

end
-- ==== Proof.FrameIdealA.lean ====
/-
  The frame of the program: @main is a stretch of host operations that gathers 72 rows of the flattened input,
  ONE kernel region on a grid of a single point (the 72 gathered rows against the weight column, plus the bias,
  clamped below at zero), and a long stretch of host operations that only read the region's result and the small
  weight arrays. The region's four windows each stage their whole array as one block; the body loads the three input
  blocks, computes one payload and stores it over the whole output block. Every weakly fair execution therefore runs to
  the end without a fault: the host stretches are straight lines over unscoped buffers, and the region is the library's
  pipeline run of a body whose triple is proved below. The argument arrays are written by no operation and staged only
  as inputs, so they end as launched; the final result is the later stretch's fold applied to the region's output array.
-/
import proofs.«170850_j55181739819745_2_alg».proof.Proof.Gen.KernelIdeal.Launch
import proofs.«170850_j55181739819745_2_alg».proof.Proof.Gen.KernelIdeal.Skeleton
import proofs.«170850_j55181739819745_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch contents after the gathering stretch. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- The stretches of host operations after the region, in order (a called function's operations a stretch of its own). -/
abbrev tailOps : List (List (HloOp τ sig (Elt F))) :=
  [hostOps1, hostOps1_1, hostOps1_2, hostOps1_3, hostOps1_4, hostOps1_5, hostOps1_6, hostOps1_7, hostOps1_8, hostOps1_9, hostOps1_10]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- @main reduces to the region continued by the later stretches, at the contents after the gathering stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- Each operation of a later stretch writes its own result buffer, which is none of the four staged arrays. -/
local macro "keeps_arrays" : tactic =>
  `(tactic| (simp only [List.Forall]
             repeat' apply And.intro
             all_goals (intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide))))

theorem hostOps1_keeps : (hostOps1 : List (HloOp τ sig (Elt F))).Forall fun op => ∀ w, Proc.devRef .tc (Pipeline.arrRef spec0 w) ∉ op.writes := by
  keeps_arrays
theorem hostOps1_1_keeps : (hostOps1_1 : List (HloOp τ sig (Elt F))).Forall fun op => ∀ w, Proc.devRef .tc (Pipeline.arrRef spec0 w) ∉ op.writes := by
  keeps_arrays
theorem hostOps1_2_keeps : (hostOps1_2 : List (HloOp τ sig (Elt F))).Forall fun op => ∀ w, Proc.devRef .tc (Pipeline.arrRef spec0 w) ∉ op.writes := by
  keeps_arrays
theorem hostOps1_3_keeps : (hostOps1_3 : List (HloOp τ sig (Elt F))).Forall fun op => ∀ w, Proc.devRef .tc (Pipeline.arrRef spec0 w) ∉ op.writes := by
  keeps_arrays
theorem hostOps1_4_keeps : (hostOps1_4 : List (HloOp τ sig (Elt F))).Forall fun op => ∀ w, Proc.devRef .tc (Pipeline.arrRef spec0 w) ∉ op.writes := by
  keeps_arrays
theorem hostOps1_5_keeps : (hostOps1_5 : List (HloOp τ sig (Elt F))).Forall fun op => ∀ w, Proc.devRef .tc (Pipeline.arrRef spec0 w) ∉ op.writes := by
  keeps_arrays
theorem hostOps1_6_keeps : (hostOps1_6 : List (HloOp τ sig (Elt F))).Forall fun op => ∀ w, Proc.devRef .tc (Pipeline.arrRef spec0 w) ∉ op.writes := by
  keeps_arrays
theorem hostOps1_7_keeps : (hostOps1_7 : List (HloOp τ sig (Elt F))).Forall fun op => ∀ w, Proc.devRef .tc (Pipeline.arrRef spec0 w) ∉ op.writes := by
  keeps_arrays
theorem hostOps1_8_keeps : (hostOps1_8 : List (HloOp τ sig (Elt F))).Forall fun op => ∀ w, Proc.devRef .tc (Pipeline.arrRef spec0 w) ∉ op.writes := by
  keeps_arrays
theorem hostOps1_9_keeps : (hostOps1_9 : List (HloOp τ sig (Elt F))).Forall fun op => ∀ w, Proc.devRef .tc (Pipeline.arrRef spec0 w) ∉ op.writes := by
  keeps_arrays
theorem hostOps1_10_keeps : (hostOps1_10 : List (HloOp τ sig (Elt F))).Forall fun op => ∀ w, Proc.devRef .tc (Pipeline.arrRef spec0 w) ∉ op.writes := by
  keeps_arrays

theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop

end Cert.KernelIdeal.Frame

end
-- ==== Proof.FrameIdealArgs.lean ====
/-
  The argument arrays are written by no host operation: each operation writes its own result buffer, and the result
  buffers of the two stretches are listed below. A buffer outside a stretch's list keeps its contents through the stretch,
  so an argument that no window stages ends at its launch contents.
-/
import proofs.«170850_j55181739819745_2_alg».proof.Proof.FrameIdealA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffers of the gathering stretch, in order. -/
abbrev headWrites : List (Ref sig .tc) := [main_v0, main_v1, main_v2, main_v3, main_v4, main_v5, main_v6, main_v7, main_v8, main_v9, main_v10, main_v11, main_v12, main_v13, main_v14, main_v15, main_v16, main_v17, main_v18, main_v19, main_v20]
/-- The result buffers of the later stretches, in order. -/
abbrev tailWrites : List (Ref sig .tc) := [main_v22, main_v23, main_v24, main_v25, main_v26, main_v27, main_call0_cst, main_call0_v0, main_v28, main_v29, main_v30, main_v31, main_v32, main_v33, main_v34, main_v35, main_v36, main_call1_cst, main_call1_v0, main_v37, main_v38, main_v39, main_v40, main_v41, main_v42, main_v43, main_v44, main_v45, main_v46, main_call2_cst, main_call2_v0, main_v47, main_v48, main_v49, main_v50, main_v51, main_cst, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_call3_cst, main_call3_v0, main_v78, main_v79, main_v80, main_v81, main_v82, main_v83, main_v84, main_v85, main_v86, main_v87, main_call4_cst, main_call4_v0, main_v88, main_v89, main_v90]

local macro "writes_listed" : tactic =>
  `(tactic| (simp only [List.Forall, StableHlo.nullary_writes, StableHlo.unary_writes, StableHlo.binary_writes, StableHlo.ternary_writes, StableHlo.quaternary_writes, StableHlo.reshape_writes, StableHlo.nary_writes]
             repeat' apply And.intro
             all_goals exact Finset.singleton_subset_iff.mpr (List.mem_toFinset.mpr (List.mem_map_of_mem (by decide)))))

theorem head_writes : (List.flatten [hostOps0] : List (HloOp τ sig (Elt F))).Forall fun op =>
    op.writes ⊆ (headWrites.map (Proc.devRef (τ := τ) .tc)).toFinset := by
  simp only [hostOps0, List.flatten_cons, List.flatten_nil, List.append_nil, List.cons_append, List.nil_append]
  writes_listed

theorem tail_writes : (List.flatten tailOps : List (HloOp τ sig (Elt F))).Forall fun op =>
    op.writes ⊆ (tailWrites.map (Proc.devRef (τ := τ) .tc)).toFinset := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  writes_listed

/-- A buffer the gathering stretch does not write is found by the region as launched. -/
theorem V_of_not_written (c : Dev nD) (r : Ref sig .tc) (hr : r ∉ headWrites) : V m c r = m ((c : Thread nD τ).loc r) :=
  StableHlo.after_of_writes_sub _ _ head_writes hr

/-- A buffer that is no staged array and that the later stretches do not write ends as the region found it. -/
theorem W_of_not_written (dats : (p : Fin 1) → (c : Dev nD) → Dat τ (Elt F) Unit ℕ (UR sig nD τ) ℕ (cfgs p) c) (c : Dev nD)
    (r : Ref sig .tc) (hr : r ∉ tailWrites) (hne : ∀ w, Pipeline.arrRef spec0 w ≠ r) :
    Pipeline.afterTail₀ cfgs dats 0 (V0 m) tailOps c r = V m c r := by
  unfold Pipeline.afterTail₀
  rw [StableHlo.after_of_writes_sub _ _ tail_writes hr, Pipeline.withArrays_of_ne _ c (V0 m c) _ r hne]

/-- THE FRAME from a frame run to the library's post: the weight column is a staged input, which the data keep at its
    entry contents; every other argument is staged by no window and written by no operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(((h c).2 main_arg0 (Pipeline.mem_restRefs_of main_arg0 (by decide) (by decide))).trans ((W_of_not_written m dats c main_arg0 (by decide) (by decide)).trans (V_of_not_written m c main_arg0 (by decide)))),
    ((h c).1 1).trans (((dats 0 c).arrAt_in 1 rfl _).trans ((hA c 1).trans (V_of_not_written m c main_arg1 (by decide)))),
    (((h c).2 main_arg2 (Pipeline.mem_restRefs_of main_arg2 (by decide) (by decide))).trans ((W_of_not_written m dats c main_arg2 (by decide) (by decide)).trans (V_of_not_written m c main_arg2 (by decide)))),
    (((h c).2 main_arg3 (Pipeline.mem_restRefs_of main_arg3 (by decide) (by decide))).trans ((W_of_not_written m dats c main_arg3 (by decide) (by decide)).trans (V_of_not_written m c main_arg3 (by decide)))),
    (((h c).2 main_arg4 (Pipeline.mem_restRefs_of main_arg4 (by decide) (by decide))).trans ((W_of_not_written m dats c main_arg4 (by decide) (by decide)).trans (V_of_not_written m c main_arg4 (by decide)))),
    (((h c).2 main_arg5 (Pipeline.mem_restRefs_of main_arg5 (by decide) (by decide))).trans ((W_of_not_written m dats c main_arg5 (by decide) (by decide)).trans (V_of_not_written m c main_arg5 (by decide)))),
    (((h c).2 main_arg6 (Pipeline.mem_restRefs_of main_arg6 (by decide) (by decide))).trans ((W_of_not_written m dats c main_arg6 (by decide) (by decide)).trans (V_of_not_written m c main_arg6 (by decide)))),
    (((h c).2 main_arg7 (Pipeline.mem_restRefs_of main_arg7 (by decide) (by decide))).trans ((W_of_not_written m dats c main_arg7 (by decide) (by decide)).trans (V_of_not_written m c main_arg7 (by decide)))),
    (((h c).2 main_arg8 (Pipeline.mem_restRefs_of main_arg8 (by decide) (by decide))).trans ((W_of_not_written m dats c main_arg8 (by decide) (by decide)).trans (V_of_not_written m c main_arg8 (by decide)))),
    (((h c).2 main_arg9 (Pipeline.mem_restRefs_of main_arg9 (by decide) (by decide))).trans ((W_of_not_written m dats c main_arg9 (by decide) (by decide)).trans (V_of_not_written m c main_arg9 (by decide)))),
    (((h c).2 main_arg10 (Pipeline.mem_restRefs_of main_arg10 (by decide) (by decide))).trans ((W_of_not_written m dats c main_arg10 (by decide) (by decide)).trans (V_of_not_written m c main_arg10 (by decide)))),
    (((h c).2 main_arg11 (Pipeline.mem_restRefs_of main_arg11 (by decide) (by decide))).trans ((W_of_not_written m dats c main_arg11 (by decide) (by decide)).trans (V_of_not_written m c main_arg11 (by decide)))),
    (((h c).2 main_arg12 (Pipeline.mem_restRefs_of main_arg12 (by decide) (by decide))).trans ((W_of_not_written m dats c main_arg12 (by decide) (by decide)).trans (V_of_not_written m c main_arg12 (by decide))))⟩) h

end Cert.KernelIdeal.Frame

end
-- ==== Proof.FrameIdealBody.lean ====
/-
  The region's body and the run. The body loads the three input blocks whole, computes ONE payload from them (the
  72 x 6400 block against the 6400 x 1 column on the matrix unit into a zero accumulator, plus the 1 x 1 bias spread down
  the column, clamped below at zero) and stores it over the whole 72 x 1 output block; its load of the output block
  before the store is never used. What the output window's staging buffer holds after the body is therefore the canon of
  that single store. The proof data say so at the one grid point, and the library's frame run around the region gives
  the post: every staged array at what the data compute, every other unscoped buffer at the later stretches' fold.
-/
import proofs.«170850_j55181739819745_2_alg».proof.Proof.FrameIdealA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data over the entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles: each access is the whole block -/

abbrev rX : Rect S72x6400 := Rect.unit (s := S72x6400) ![0, 0] S72x6400.size inb_S72x6400_S72x6400_0_0
abbrev rW : Rect S6400x1 := Rect.unit (s := S6400x1) ![0, 0] S6400x1.size inb_S6400x1_S6400x1_0_0
abbrev rB : Rect S1x1 := Rect.unit (s := S1x1) ![0, 0] S1x1.size inb_S1x1_S1x1_0_0
abbrev rH : Rect S72x1 := Rect.unit (s := S72x1) ![0, 0] S72x1.size inb_S72x1_S72x1_0_0

/-- The output window's staging buffer after the body: its one store, of the payload of the three loaded blocks. -/
def hidden (x0 : Vec F S72x6400 .f32) (x1 : Vec F S6400x1 .f32) (x2 : Vec F S1x1 .f32) : Vec F S72x1 .f32 :=
  View.canon [⟨rH, k0_pay1 (View.ld x0 rX) (View.ld x1 rW) (View.ld x2 rB)⟩]

/-- The one store covers the block. -/
theorem hidden_cover (p0 : Vec F S72x1 .f32) (y : S72x1.Idx) :
    ∃ pc ∈ ([⟨rH, p0⟩] : List (View.Piece (Elt F) S72x1 .f32)), y ∈ pc.1.set :=
  View.cover_of_tiled [⟨rH, p0⟩] S72x1.size (by rfl) y

/-! ## The body's triple -/

set_option maxHeartbeats 2000000 in
/-- On whole staging memrefs, the inputs' at contents `x0 x1 x2` and the output's at anything, the body runs to its
    continuation holding the inputs' as they were and the output's at `hidden x0 x1 x2`. -/
theorem sound_kernel (c : Dev nD) (E : Set ℕ) (i : grid0.Coords)
    (arg1 : Memref sig .tc .vmem S72x6400 .f32) (harg1 : arg1.IsWhole) (arg2 : Memref sig .tc .vmem S6400x1 .f32) (harg2 : arg2.IsWhole)
    (arg3 : Memref sig .tc .vmem S1x1 .f32) (harg3 : arg3.IsWhole) (arg4 : Memref sig .tc .vmem S72x1 .f32) (harg4 : arg4.IsWhole)
    (x0 : Vec F S72x6400 .f32) (x1 : Vec F S6400x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (hidden x0 x1 x2)) -∗ K ⟨⟩))
      ⊢ wp frame (wpE (defs₀ (F := F)) Variants.none c none) E (cc0__h1_kernel i arg1 harg1 arg2 harg2 arg3 harg3 arg4 harg4) K := by
  simp only [cc0__h1_kernel_eq_skeleton]; unfold cc0__h1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (hidden_cover _)

/-! ## The proof data -/

/-- The arrays as the region finds them; after the body each input's buffer at its block and the output's at `hidden`
    of the input blocks; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hidden (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = hidden (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, every staged array ending at
    what the proof data compute and every other unscoped buffer as the later stretches leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

end Cert.KernelIdeal.Frame

end
-- ==== Proof.FrameIdeal.lean ====
/-
  The frame claim of the program at any float instance: every weakly fair execution of @main terminates without a
  fault and the thirteen argument arrays end as launched (the run of the region and its two host stretches, read at the
  argument buffers).
-/
import proofs.«170850_j55181739819745_2_alg».proof.Proof.FrameIdealArgs
import proofs.«170850_j55181739819745_2_alg».proof.Proof.FrameIdealBody

noncomputable section

namespace Cert.KernelIdeal.Frame

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Frame

end
-- ==== Proof.KernelHidden.lean ====
/-
  What the region leaves in its output array. Each of the four windows stages its whole array as a single block at the
  origin of a one-point grid, so the input blocks the body loads ARE the arrays the region found, and the one block the
  point writes back covers the whole 72 x 1 output array: after the region the array is the body's payload of the three
  input arrays.
-/
import proofs.«170850_j55181739819745_2_alg».proof.Proof.FrameIdealBody
import Idealize.ShloMosaic.Lib.Pipeline.Value

set_option maxRecDepth 16384

noncomputable section

namespace Cert.KernelIdeal.Hidden

open Cert.KernelIdeal Cert.KernelIdeal.Gen Cert.KernelIdeal.Frame
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- Every window's block index is the origin at the grid's one point. -/
theorem at_origin : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The gathered rows' block is the array of gathered rows. -/
theorem blk_rows (c : Dev nD) (t : Fin cfg0.N) : (iblk m c 0 t : Vec F S72x6400 .f32) = V m c main_v20 := by
  obtain ⟨e0, e1, -⟩ := at_origin t
  funext y
  show V m c main_v20 (((cfg0.win 0).blk t).view.emb y) = V m c main_v20 y
  refine congrArg (V m c main_v20) (funext fun a => Fin.ext ?_)
  match a with
  | ⟨0, _⟩ => show win0_0.index t (0 : Fin 2) * 72 + 1 * (y 0).val = (y 0).val; omega
  | ⟨1, _⟩ => show win0_0.index t (1 : Fin 2) * 6400 + 1 * (y 1).val = (y 1).val; omega

/-- The weight column's block is the weight column. -/
theorem blk_col (c : Dev nD) (t : Fin cfg0.N) : (iblk m c 1 t : Vec F S6400x1 .f32) = V m c main_arg1 := by
  obtain ⟨-, -, e0, e1, -⟩ := at_origin t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 6400 + 1 * (y 0).val = (y 0).val; omega
  | ⟨1, _⟩ => show win0_1.index t (1 : Fin 2) * 1 + 1 * (y 1).val = (y 1).val; omega

/-- The bias block is the bias as a 1 x 1 array. -/
theorem blk_bias (c : Dev nD) (t : Fin cfg0.N) : (iblk m c 2 t : Vec F S1x1 .f32) = V m c main_v1 := by
  obtain ⟨-, -, -, -, e0, e1, -⟩ := at_origin t
  funext y
  show V m c main_v1 (((cfg0.win 2).blk t).view.emb y) = V m c main_v1 y
  refine congrArg (V m c main_v1) (funext fun a => Fin.ext ?_)
  match a with
  | ⟨0, _⟩ => show win0_2.index t (0 : Fin 2) * 1 + 1 * (y 0).val = (y 0).val; omega
  | ⟨1, _⟩ => show win0_2.index t (1 : Fin 2) * 1 + 1 * (y 1).val = (y 1).val; omega

/-- What the point writes back is the block of the payload of the three arrays. -/
theorem flushed_eq (c : Dev nD) (t : Fin cfg0.N) :
    (dats m 0 c).flushed 3 t
      = ((cfg0.win 3).blk t).view.read (Elt F) (k0_pay1 (V m c main_v20) (V m c main_arg1) (V m c main_v1)) := by
  show (cfg0.win 3).cut (grid0.coords t) ((dats m 0 c).after 3 t) = _
  rw [after0_3]
  unfold Cert.KernelIdeal.Frame.hidden
  rw [View.canon_unit_zero origin]
  simp only [View.ld_unit_zero (S := S72x6400) origin, View.ld_unit_zero (S := S6400x1) origin, View.ld_unit_zero (S := S1x1) origin]
  rw [blk_rows m c t, blk_col m c t, blk_bias m c t]
  obtain ⟨-, -, -, -, -, -, e0, e1⟩ := at_origin t
  funext j
  show k0_pay1 (V m c main_v20) (V m c main_arg1) (V m c main_v1) j
    = k0_pay1 (V m c main_v20) (V m c main_arg1) (V m c main_v1) (((cfg0.win 3).blk t).view.emb j)
  refine congrArg (k0_pay1 (V m c main_v20) (V m c main_arg1) (V m c main_v1)) (funext fun a => Fin.ext ?_)
  match a with
  | ⟨0, _⟩ => show (j 0).val = win0_3.index t (0 : Fin 2) * 72 + 1 * (j 0).val; omega
  | ⟨1, _⟩ => show (j 1).val = win0_3.index t (1 : Fin 2) * 1 + 1 * (j 1).val; omega

/-- An index is in the point's block iff each coordinate is in the block's range. -/
theorem mem_blk (t : Fin cfg0.N) (i : S72x1.Idx) :
    i ∈ ((cfg0.win 3).blk t).view.set ↔ ∀ a : Fin 2, win0_3.index t a * S72x1.size a ≤ (i a).val ∧ (i a).val < win0_3.index t a * S72x1.size a + S72x1.size a := by
  show i ∈ ((View.whole main_v21).slice (win0_3.rect t)).set ↔ _
  rw [View.set_slice_whole, Rect.mem_set_unit]
  exact Iff.rfl

/-- The one block covers the array. -/
theorem covered (i : S72x1.Idx) : ∃ t : Fin cfg0.N, (cfg0.win 3).flush t = true ∧ i ∈ ((cfg0.win 3).blk t).view.set := by
  refine ⟨t0_0, flush0_3 t0_0, ?_⟩
  rw [mem_blk]
  obtain ⟨-, -, -, -, -, -, e0, e1⟩ := at_origin t0_0
  have h0 : (i 0).val < 72 := (i 0).isLt
  have h1 : (i 1).val < 1 := (i 1).isLt
  intro a
  match a with
  | ⟨0, _⟩ => show win0_3.index t0_0 (0 : Fin 2) * 72 ≤ (i 0).val ∧ (i 0).val < win0_3.index t0_0 (0 : Fin 2) * 72 + 72; omega
  | ⟨1, _⟩ => show win0_3.index t0_0 (1 : Fin 2) * 1 ≤ (i 1).val ∧ (i 1).val < win0_3.index t0_0 (1 : Fin 2) * 1 + 1; omega

/-- THE OUTPUT ARRAY after the region: the payload of the gathered rows, the weight column and the bias. -/
theorem final (c : Dev nD) :
    (dats m 0 c).arrAt 3 cfg0.N = k0_pay1 (V m c main_v20) (V m c main_arg1) (V m c main_v1) :=
  (dats m 0 c).arrAt_eq_of_cover 3 _ (fun t _ => flushed_eq m c t) covered

end Cert.KernelIdeal.Hidden

end
-- ==== Proof.LibConcat.lean ====
/-
  A concatenation of ANY number of pieces along an axis, read at an index. The definition finds which piece an index
  falls in by walking the pieces' extents along the joined axis (`locate`): position c falls in the first piece when c is
  below its extent, and otherwise where c less that extent falls among the remaining pieces. Once that walk is known
  — the piece number and the position inside the piece — the concatenation at the index is that piece at the index with
  the same coordinates off the joined axis and the inner position on it.
-/
import Idealize.ShloMosaic.PureOps.ShapeOps
import Idealize.ShloMosaic.Lib.ValueIdx

noncomputable section

namespace Cert.LibConcat

open Idealize.ShloMosaic

variable {α : Type}

/-- The pieces' extents along the joined axis, as the definition of `concatenate` spells them. -/
abbrev extents (t : Shape) (a : Fin t.rank) (xs : List ((s : Shape) × (s.Idx → α))) : List Nat :=
  (xs.map (·.1)).map fun s => if h : s.rank = t.rank then s.size (a.cast h.symm) else 0

/-- A position below the first extent falls in the first piece, at that position. -/
theorem locate_cons_lt (n : Nat) (ns : List Nat) (c : Nat) (h : c < (n :: ns).sum) (hc : c < n) :
    locate (n :: ns) c h = ⟨⟨0, Nat.zero_lt_succ _⟩, ⟨c, hc⟩⟩ := by
  rw [locate, dif_pos hc]

/-- A position at or past the first extent falls where the position less that extent falls among the rest, one piece on. -/
theorem locate_cons_ge (n : Nat) (ns : List Nat) (c : Nat) (h : c < (n :: ns).sum) (hc : n ≤ c) :
    locate (n :: ns) c h
      = ⟨(locate ns (c - n) (by rw [List.sum_cons] at h; omega)).1.succ, (locate ns (c - n) (by rw [List.sum_cons] at h; omega)).2⟩ := by
  rw [locate, dif_neg (Nat.not_lt.2 hc)]

/-- THE CONCATENATION AT AN INDEX: if the walk over the extents puts the joined-axis coordinate of `j` in piece `kr.1` at
    inner position `kr.2`, the concatenation at `j` is that piece at the index `i` agreeing with `j` off the joined axis
    and holding the inner position on it. -/
theorem concatenate_apply_of_locate {t : Shape} (a : Fin t.rank) (xs : List ((s : Shape) × (s.Idx → α)))
    (h : Shape.Concatenates (xs.map (·.1)) t a) (j : t.Idx)
    (kr : (k : Fin (extents t a xs).length) × Fin (extents t a xs)[k])
    (HL : locate (extents t a xs) (j a).val (lt_of_lt_of_eq (j a).isLt h.2.2.symm) = kr)
    (hk : kr.1.val < xs.length) (hr : (xs[kr.1.val]).1.rank = t.rank) (i : (xs[kr.1.val]).1.Idx)
    (hi : ∀ b : Fin (xs[kr.1.val]).1.rank, b.cast hr ≠ a → (i b).val = (j (b.cast hr)).val)
    (ha : (i (a.cast hr.symm)).val = kr.2.val) :
    concatenate t a xs h j = (xs[kr.1.val]).2 i := by
  subst HL
  unfold concatenate
  dsimp only
  refine congrArg (xs[(locate (extents t a xs) (j a).val (lt_of_lt_of_eq (j a).isLt h.2.2.symm)).1.val]).2 (funext fun b => Fin.ext ?_)
  by_cases hb : b.cast hr = a
  · rw [dif_pos hb]
    have eb : b = a.cast hr.symm := Fin.ext (by have := congrArg Fin.val hb; simpa using this)
    subst eb
    simpa using ha.symm
  · rw [dif_neg hb]
    simpa using (hi b hb).symm

end Cert.LibConcat

end
-- ==== Proof.Spec.lean ====
/-
  The function both programs compute, index by index, on the extended reals.
  Flatten each of the 4096 input frames to 6400 entries. Row r goes through the first layer (one output unit),
      hid r = max(sum_k x[r, k] * W1[k, 0] + b1[0], 0),
  and unit c of the second layer on that scalar is
      lay2 (hid r) c = max(hid r * W2[0, c] + b2[c], 0).
  A head sends a scalar u through max(u * Wa + ba, 0) and then through max(. * Wb[0, q] + bb[q], 0).
  Reading column 1 of the 4096 x 64 leading columns reshaped to 64 x 4096 picks, for i < 64, row 64 i and unit 1; reading
  column 1 of columns 64..69 reshaped to 6 x 4096 picks, for i < 6, the flat position 4096 i + 1 of a 4096 x 6 table:
  rows 0, 682, 1365, 2048, 2730, 3413 and units 65, 69, 67, 65, 69, 67. So
      tableA (i, q) = head (lay2 (hid (64 i)) 1) q        (64 x 80),
      tableB (i, q) = head (lay2 (hid (rowB i)) (unitB i)) q   (6 x 513).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float literal zero, as the ideal values read it. -/
abbrev zr : EReal := Ideal.ofBits .f32 0x00000000#32

/-- Entry k of the flattened frame r, inside the four-axis input. -/
abbrev pix (r : Fin 4096) (k : Fin 6400) : (⟨4, ![4096, 80, 80, 1]⟩ : Shape).Idx :=
  ix4 r (⟨k.val / 80, by have := k.isLt; omega⟩ : Fin 80) (⟨k.val % 80, Nat.mod_lt _ (by decide)⟩ : Fin 80) (⟨0, Nat.one_pos⟩ : Fin 1)

/-- The first layer on frame r. -/
def hid (x0 : (⟨4, ![4096, 80, 80, 1]⟩ : Shape).Idx → EReal) (W1 : (⟨2, ![6400, 1]⟩ : Shape).Idx → EReal)
    (b1 : (⟨1, ![1]⟩ : Shape).Idx → EReal) (r : Fin 4096) : EReal :=
  max ((∑ k : Fin 6400, x0 (pix r k) * W1 (ix2 k (0 : Fin 1))) + b1 (ix1 (0 : Fin 1))) zr

/-- Unit c of the second layer on a scalar. -/
def lay2 (W2 : (⟨2, ![1, 518]⟩ : Shape).Idx → EReal) (b2 : (⟨1, ![518]⟩ : Shape).Idx → EReal) (u : EReal) (c : Fin 518) : EReal :=
  max (u * W2 (ix2 (0 : Fin 1) c) + b2 (ix1 c)) zr

/-- A head: the scalar layer, then output q of the wide layer. -/
def head {n : Nat} (Wa : (⟨2, ![1, 1]⟩ : Shape).Idx → EReal) (ba : (⟨1, ![1]⟩ : Shape).Idx → EReal)
    (Wb : (⟨2, ![1, n]⟩ : Shape).Idx → EReal) (bb : (⟨1, ![n]⟩ : Shape).Idx → EReal) (u : EReal) (q : Fin n) : EReal :=
  max (max (u * Wa (ix2 (0 : Fin 1) (0 : Fin 1)) + ba (ix1 (0 : Fin 1))) zr * Wb (ix2 (0 : Fin 1) q) + bb (ix1 q)) zr

/-- The frames head B reads. -/
def rowB : Fin 6 → Fin 4096 := ![0, 682, 1365, 2048, 2730, 3413]
/-- The second-layer units head B reads. -/
def unitB : Fin 6 → Fin 518 := ![65, 69, 67, 65, 69, 67]

/-- The frame head B reads for i is the row of flat position 4096 i + 1 in a table six wide. -/
theorem rowB_val : ∀ p : Fin 6, (rowB p).val = (p.val * 4096 + 1) / 6 := by decide
/-- The unit head B reads for i is 64 past the column of that position. -/
theorem unitB_val : ∀ p : Fin 6, (unitB p).val = 64 + (p.val * 4096 + 1) % 6 := by decide

/-- Head A's table. -/
def tableA (x0 : (⟨4, ![4096, 80, 80, 1]⟩ : Shape).Idx → EReal) (W1 : (⟨2, ![6400, 1]⟩ : Shape).Idx → EReal) (b1 : (⟨1, ![1]⟩ : Shape).Idx → EReal)
    (W2 : (⟨2, ![1, 518]⟩ : Shape).Idx → EReal) (b2 : (⟨1, ![518]⟩ : Shape).Idx → EReal)
    (Wa : (⟨2, ![1, 1]⟩ : Shape).Idx → EReal) (ba : (⟨1, ![1]⟩ : Shape).Idx → EReal)
    (Wb : (⟨2, ![1, 80]⟩ : Shape).Idx → EReal) (bb : (⟨1, ![80]⟩ : Shape).Idx → EReal) : (⟨2, ![64, 80]⟩ : Shape).Idx → EReal :=
  fun j => head Wa ba Wb bb (lay2 W2 b2 (hid x0 W1 b1 ⟨64 * (j 0).val, by have h : (j 0).val < 64 := (j 0).isLt; omega⟩) (1 : Fin 518)) (j 1)

/-- Head B's table. -/
def tableB (x0 : (⟨4, ![4096, 80, 80, 1]⟩ : Shape).Idx → EReal) (W1 : (⟨2, ![6400, 1]⟩ : Shape).Idx → EReal) (b1 : (⟨1, ![1]⟩ : Shape).Idx → EReal)
    (W2 : (⟨2, ![1, 518]⟩ : Shape).Idx → EReal) (b2 : (⟨1, ![518]⟩ : Shape).Idx → EReal)
    (Wa : (⟨2, ![1, 1]⟩ : Shape).Idx → EReal) (ba : (⟨1, ![1]⟩ : Shape).Idx → EReal)
    (Wb : (⟨2, ![1, 513]⟩ : Shape).Idx → EReal) (bb : (⟨1, ![513]⟩ : Shape).Idx → EReal) : (⟨2, ![6, 513]⟩ : Shape).Idx → EReal :=
  fun j => head Wa ba Wb bb (lay2 W2 b2 (hid x0 W1 b1 (rowB (j 0))) (unitB (j 0))) (j 1)

end Cert.Spec

end
-- ==== Proof.KernelGather.lean ====
/-
  The gathering stretch before the region, read at an index. It flattens each input frame to 6400 entries (row-major), and
  stacks 72 frames: rows 0..63 are frames 0, 64, 128, ..., 4032 (the table of frames seen as 64 groups of 64, the first
  of each group), rows 64..67 are frames 682, 1365, 2730, 3413, and rows 68..71 repeat frame 0. The bias becomes a 1 x 1
  array and the weight column is passed as it is.
-/
import proofs.«170850_j55181739819745_2_alg».proof.Proof.FrameIdealArgs
import proofs.«170850_j55181739819745_2_alg».proof.Proof.LibConcat
import proofs.«170850_j55181739819745_2_alg».proof.Proof.Spec
import Idealize.ShloMosaic.Lib.Pipeline.Value

set_option maxRecDepth 16384

noncomputable section

namespace Cert.KernelIdeal.Gather

open Cert.KernelIdeal Cert.KernelIdeal.Gen Cert.KernelIdeal.Frame
open Idealize.ShloMosaic Idealize.ShloMosaic.TcCoe Idealize.SL.Sem Idealize.ShloMosaic.StableHlo Idealize.ShloMosaic.ValueIdx
open Cert.Spec (pix)

variable {F : FTy → Type} [FloatOps F]

/-- The input with each frame flattened. -/
def flat (x : FVec F S4096x80x80x1 .f32) : FVec F S4096x6400 .f32 :=
  shapeCast S4096x6400 x shapeCasts_S4096x80x80x1_S4096x6400

/-- One frame as a 1 x 6400 row: sliced out, its unit axis dropped and put back. -/
def frameRow (X : FVec F S4096x6400 .f32) (r : Nat) (h : S4096x6400.Slices ![r, 0] S1x6400) : FVec F S1x6400 .f32 :=
  broadcastInDim S1x6400 ![1] bcast_S6400_S1x6400_1 (shapeCast S6400 (extractStridedSlice S1x6400 ![r, 0] X h) shapeCasts_S1x6400_S6400)

/-- The first frame of each of the 64 groups of 64 frames. -/
def groupHeads (X : FVec F S4096x6400 .f32) : FVec F S64x6400 .f32 :=
  shapeCast S64x6400 (extractStridedSlice S64x1x6400 ![0, 0, 0] (shapeCast S64x64x6400 X shapeCasts_S4096x6400_S64x64x6400)
    slices_S64x64x6400_S64x1x6400_0_0_0) shapeCasts_S64x1x6400_S64x6400

/-- The four further frames, as rows. -/
abbrev extraPieces (X : FVec F S4096x6400 .f32) : List ((s : Shape) × (s.Idx → F .f32)) :=
  [⟨S1x6400, frameRow X 682 slices_S4096x6400_S1x6400_682_0⟩, ⟨S1x6400, frameRow X 1365 slices_S4096x6400_S1x6400_1365_0⟩,
    ⟨S1x6400, frameRow X 2730 slices_S4096x6400_S1x6400_2730_0⟩, ⟨S1x6400, frameRow X 3413 slices_S4096x6400_S1x6400_3413_0⟩]

/-- The four further frames. -/
def extras (X : FVec F S4096x6400 .f32) : FVec F S4x6400 .f32 :=
  concatenate S4x6400 0 (extraPieces X) concatenates_S1x6400_S1x6400_S1x6400_S1x6400_S4x6400_d0

/-- The three stacks of rows. -/
abbrev rowPieces (x : FVec F S4096x80x80x1 .f32) : List ((s : Shape) × (s.Idx → F .f32)) :=
  [⟨S64x6400, groupHeads (flat x)⟩, ⟨S4x6400, extras (flat x)⟩,
    ⟨S4x6400, broadcastInDim S4x6400 ![0, 1] bcast_S1x6400_S4x6400_0_1 (extractStridedSlice S1x6400 ![0, 0] (flat x) slices_S4096x6400_S1x6400_0_0)⟩]

/-- The 72 gathered rows. -/
def rows72 (x : FVec F S4096x80x80x1 .f32) : FVec F S72x6400 .f32 :=
  concatenate S72x6400 0 (rowPieces x) concatenates_S64x6400_S4x6400_S4x6400_S72x6400_d0

variable (m : (ℓ : Loc nD τ sig) → Buf (Elt F) ℓ)

/-- The region finds the gathered rows of the launched input. -/
theorem rows_fold (c : Dev nD) : V m c main_v20 = rows72 (m ((c : Thread nD τ).loc main_arg0)) := by
  show StableHlo.after (List.flatten [hostOps0]) (fun b => m (c, b)) (Proc.devRef .tc main_v20) = _
  simp only [hostOps0, List.flatten_cons, List.flatten_nil, List.append_nil]
  after_results_simp
  rfl

/-- The region finds the bias as a 1 x 1 array. -/
theorem bias_fold (c : Dev nD) : V m c main_v1 = shapeCast S1x1 (m ((c : Thread nD τ).loc main_arg2)) shapeCasts_S1_S1x1 := by
  show StableHlo.after (List.flatten [hostOps0]) (fun b => m (c, b)) (Proc.devRef .tc main_v1) = _
  simp only [hostOps0, List.flatten_cons, List.flatten_nil, List.append_nil]
  after_results_simp
  rfl

/-- Entry k of flattened frame r is the input at its row-major place. -/
theorem flat_at (x : FVec F S4096x80x80x1 .f32) (r : Fin 4096) (k : Fin 6400) : flat x (ix2 r k) = x (pix r k) := by
  unfold flat
  refine shapeCast_apply x shapeCasts_S4096x80x80x1_S4096x6400 (ix2 r k) (pix r k) ?_
  rewrite [Shape.rowMajor_val_four, Shape.rowMajor_val_two]
  have hk : k.val < 6400 := k.isLt
  show ((r.val * 80 + k.val / 80) * 80 + k.val % 80) * 1 + 0 = r.val * 6400 + k.val
  omega

/-- A frame's row at an entry. -/
theorem frameRow_at (X : FVec F S4096x6400 .f32) (r : Nat) (h : S4096x6400.Slices ![r, 0] S1x6400) (hr : r < 4096) (j : S1x6400.Idx) :
    frameRow X r h j = X (ix2 (⟨r, hr⟩ : Fin 4096) (j 1)) := by
  unfold frameRow
  refine (broadcastInDim_apply _ bcast_S6400_S1x6400_1 _ j (ix1 (j 1)) (fun a => match a with
    | ⟨0, _⟩ => by show (j 1).val = if (6400 : Nat) = 1 then 0 else (j 1).val; rw [if_neg (by decide)])).trans ?_
  refine (shapeCast_apply _ shapeCasts_S1x6400_S6400 (ix1 (j 1)) (ix2 (0 : Fin 1) (j 1)) (by
    rewrite [Shape.rowMajor_val_two, Shape.rowMajor_val_one]
    show 0 * 6400 + (j 1).val = (j 1).val; omega)).trans ?_
  exact extractStridedSlice_apply ![r, 0] X h (ix2 (0 : Fin 1) (j 1)) (ix2 (⟨r, hr⟩ : Fin 4096) (j 1)) (fun a => match a with
    | ⟨0, _⟩ => by show r = r + 0; omega
    | ⟨1, _⟩ => by show (j 1).val = 0 + (j 1).val; omega)

/-- Group i's first frame is frame 64 i. -/
theorem groupHeads_at (X : FVec F S4096x6400 .f32) (i : Fin 64) (k : Fin 6400) :
    groupHeads X (ix2 i k) = X (ix2 (⟨64 * i.val, by have := i.isLt; omega⟩ : Fin 4096) k) := by
  unfold groupHeads
  have hi : i.val < 64 := i.isLt
  have hk : k.val < 6400 := k.isLt
  refine (shapeCast_apply _ shapeCasts_S64x1x6400_S64x6400 (ix2 i k) (ix3 i (0 : Fin 1) k) (by
    rewrite [Shape.rowMajor_val_three, Shape.rowMajor_val_two]
    show (i.val * 1 + 0) * 6400 + k.val = i.val * 6400 + k.val; omega)).trans ?_
  refine (extractStridedSlice_apply ![0, 0, 0] _ slices_S64x64x6400_S64x1x6400_0_0_0 (ix3 i (0 : Fin 1) k) (ix3 i (0 : Fin 64) k) (fun a => match a with
    | ⟨0, _⟩ => by show i.val = 0 + i.val; omega
    | ⟨1, _⟩ => by show 0 = 0 + 0; omega
    | ⟨2, _⟩ => by show k.val = 0 + k.val; omega)).trans ?_
  exact shapeCast_apply X shapeCasts_S4096x6400_S64x64x6400 (ix3 i (0 : Fin 64) k) (ix2 (⟨64 * i.val, by omega⟩ : Fin 4096) k) (by
    rewrite [Shape.rowMajor_val_two, Shape.rowMajor_val_three]
    show 64 * i.val * 6400 + k.val = (i.val * 64 + 0) * 6400 + k.val; omega)

/-- The four further frames' numbers. -/
def extraRow : Fin 4 → Fin 4096 := ![682, 1365, 2730, 3413]

/-- Row p of the four further frames is frame `extraRow p`. -/
theorem extras_at (X : FVec F S4096x6400 .f32) (p : Fin 4) (k : Fin 6400) : extras X (ix2 p k) = X (ix2 (extraRow p) k) := by
  unfold extras
  have off : ∀ (p' : Fin 4) (b : Fin 2), Fin.cast (rfl : (2 : Nat) = 2) b ≠ (0 : Fin 2) →
      ((ix2 (0 : Fin 1) k : S1x6400.Idx) b).val = ((ix2 p' k : S4x6400.Idx) (Fin.cast rfl b)).val := fun p' b hb =>
    match b, hb with
    | ⟨0, _⟩, hb => absurd rfl hb
    | ⟨1, _⟩, _ => rfl
  fin_cases p
  · exact (Cert.LibConcat.concatenate_apply_of_locate (t := S4x6400) (0 : Fin 2) (extraPieces X) concatenates_S1x6400_S1x6400_S1x6400_S1x6400_S4x6400_d0 (ix2 (0 : Fin 4) k)
      ⟨⟨0, (show (0 : Nat) < 4 by decide)⟩, ⟨0, (show (0 : Nat) < 1 by decide)⟩⟩ rfl (show (0 : Nat) < 4 by decide) rfl (ix2 (0 : Fin 1) k) (off 0) rfl).trans (frameRow_at X 682 slices_S4096x6400_S1x6400_682_0 (by decide) _)
  · exact (Cert.LibConcat.concatenate_apply_of_locate (t := S4x6400) (0 : Fin 2) (extraPieces X) concatenates_S1x6400_S1x6400_S1x6400_S1x6400_S4x6400_d0 (ix2 (1 : Fin 4) k)
      ⟨⟨1, (show (1 : Nat) < 4 by decide)⟩, ⟨0, (show (0 : Nat) < 1 by decide)⟩⟩ rfl (show (1 : Nat) < 4 by decide) rfl (ix2 (0 : Fin 1) k) (off 1) rfl).trans (frameRow_at X 1365 slices_S4096x6400_S1x6400_1365_0 (by decide) _)
  · exact (Cert.LibConcat.concatenate_apply_of_locate (t := S4x6400) (0 : Fin 2) (extraPieces X) concatenates_S1x6400_S1x6400_S1x6400_S1x6400_S4x6400_d0 (ix2 (2 : Fin 4) k)
      ⟨⟨2, (show (2 : Nat) < 4 by decide)⟩, ⟨0, (show (0 : Nat) < 1 by decide)⟩⟩ rfl (show (2 : Nat) < 4 by decide) rfl (ix2 (0 : Fin 1) k) (off 2) rfl).trans (frameRow_at X 2730 slices_S4096x6400_S1x6400_2730_0 (by decide) _)
  · exact (Cert.LibConcat.concatenate_apply_of_locate (t := S4x6400) (0 : Fin 2) (extraPieces X) concatenates_S1x6400_S1x6400_S1x6400_S1x6400_S4x6400_d0 (ix2 (3 : Fin 4) k)
      ⟨⟨3, (show (3 : Nat) < 4 by decide)⟩, ⟨0, (show (0 : Nat) < 1 by decide)⟩⟩ rfl (show (3 : Nat) < 4 by decide) rfl (ix2 (0 : Fin 1) k) (off 3) rfl).trans (frameRow_at X 3413 slices_S4096x6400_S1x6400_3413_0 (by decide) _)

/-- Rows 0..63 of the gathered rows: frame 64 i. -/
theorem rows72_head (x : FVec F S4096x80x80x1 .f32) (i : Fin 64) (k : Fin 6400) :
    rows72 x (ix2 (⟨i.val, by have := i.isLt; omega⟩ : Fin 72) k) = x (pix (⟨64 * i.val, by have := i.isLt; omega⟩ : Fin 4096) k) := by
  unfold rows72
  refine (Cert.LibConcat.concatenate_apply_of_locate (t := S72x6400) (0 : Fin 2) (rowPieces x) concatenates_S64x6400_S4x6400_S4x6400_S72x6400_d0
    (ix2 (⟨i.val, by have := i.isLt; omega⟩ : Fin 72) k) ⟨⟨0, (show (0 : Nat) < 3 by decide)⟩, ⟨i.val, (show i.val < 64 from i.isLt)⟩⟩
    (Cert.LibConcat.locate_cons_lt _ _ _ _ i.isLt) (show (0 : Nat) < 3 by decide) rfl (ix2 i k) (fun b hb =>
      match b, hb with
      | ⟨0, _⟩, hb => absurd rfl hb
      | ⟨1, _⟩, _ => rfl) rfl).trans ?_
  exact (groupHeads_at (flat x) i k).trans (flat_at x _ k)

/-- Rows 64..67 of the gathered rows: the four further frames. -/
theorem rows72_extra (x : FVec F S4096x80x80x1 .f32) (p : Fin 4) (k : Fin 6400) :
    rows72 x (ix2 (⟨64 + p.val, by have := p.isLt; omega⟩ : Fin 72) k) = x (pix (extraRow p) k) := by
  unfold rows72
  have off : ∀ (r : Fin 72) (p' : Fin 4) (b : Fin 2), Fin.cast (rfl : (2 : Nat) = 2) b ≠ (0 : Fin 2) →
      ((ix2 p' k : S4x6400.Idx) b).val = ((ix2 r k : S72x6400.Idx) (Fin.cast rfl b)).val := fun r p' b hb =>
    match b, hb with
    | ⟨0, _⟩, hb => absurd rfl hb
    | ⟨1, _⟩, _ => rfl
  fin_cases p
  · exact (Cert.LibConcat.concatenate_apply_of_locate (t := S72x6400) (0 : Fin 2) (rowPieces x) concatenates_S64x6400_S4x6400_S4x6400_S72x6400_d0
      (ix2 (⟨64, by decide⟩ : Fin 72) k) ⟨⟨1, (show (1 : Nat) < 3 by decide)⟩, ⟨0, (show (0 : Nat) < 4 by decide)⟩⟩ rfl (show (1 : Nat) < 3 by decide) rfl
      (ix2 (0 : Fin 4) k) (off _ 0) rfl).trans ((extras_at (flat x) (0 : Fin 4) k).trans (flat_at x _ k))
  · exact (Cert.LibConcat.concatenate_apply_of_locate (t := S72x6400) (0 : Fin 2) (rowPieces x) concatenates_S64x6400_S4x6400_S4x6400_S72x6400_d0
      (ix2 (⟨65, by decide⟩ : Fin 72) k) ⟨⟨1, (show (1 : Nat) < 3 by decide)⟩, ⟨1, (show (1 : Nat) < 4 by decide)⟩⟩ rfl (show (1 : Nat) < 3 by decide) rfl
      (ix2 (1 : Fin 4) k) (off _ 1) rfl).trans ((extras_at (flat x) (1 : Fin 4) k).trans (flat_at x _ k))
  · exact (Cert.LibConcat.concatenate_apply_of_locate (t := S72x6400) (0 : Fin 2) (rowPieces x) concatenates_S64x6400_S4x6400_S4x6400_S72x6400_d0
      (ix2 (⟨66, by decide⟩ : Fin 72) k) ⟨⟨1, (show (1 : Nat) < 3 by decide)⟩, ⟨2, (show (2 : Nat) < 4 by decide)⟩⟩ rfl (show (1 : Nat) < 3 by decide) rfl
      (ix2 (2 : Fin 4) k) (off _ 2) rfl).trans ((extras_at (flat x) (2 : Fin 4) k).trans (flat_at x _ k))
  · exact (Cert.LibConcat.concatenate_apply_of_locate (t := S72x6400) (0 : Fin 2) (rowPieces x) concatenates_S64x6400_S4x6400_S4x6400_S72x6400_d0
      (ix2 (⟨67, by decide⟩ : Fin 72) k) ⟨⟨1, (show (1 : Nat) < 3 by decide)⟩, ⟨3, (show (3 : Nat) < 4 by decide)⟩⟩ rfl (show (1 : Nat) < 3 by decide) rfl
      (ix2 (3 : Fin 4) k) (off _ 3) rfl).trans ((extras_at (flat x) (3 : Fin 4) k).trans (flat_at x _ k))

end Cert.KernelIdeal.Gather

end
-- ==== Proof.KernelTail.lean ====
/-
  The host operations after the region, as one function of the region's output column and the small weight arrays.
  The 72 x 1 column h goes through the second layer restricted to its first 70 output columns,
      x2 = max(h . W2[:, :70] + b2[:70], 0)                                   (72 x 70),
  and two heads read single entries of x2. Head A takes column 1 of rows 0..63, sends each entry u through
  max(u * W3a + b3a, 0) and then through max(. * W3b[q] + b3b[q], 0) for q < 80; head B takes the six entries
  (0,65) (64,69) (65,67) (32,65) (66,69) (67,67) and does the same with W4a, b4a, W4b, b4b for q < 513. The result is
  head A's 64 x 80 table flattened and repeated 80 times, then 64 zeros, then head B's 6 x 513 table flattened.
-/
import proofs.«170850_j55181739819745_2_alg».proof.Proof.FrameIdealBody
import proofs.«170850_j55181739819745_2_alg».proof.Proof.FrameIdealArgs

set_option maxRecDepth 16384

noncomputable section

namespace Cert.KernelIdeal.Tail

open Cert.KernelIdeal Cert.KernelIdeal.Gen Cert.KernelIdeal.Frame
open Idealize.ShloMosaic Idealize.ShloMosaic.TcCoe Idealize.SL.Sem Idealize.ShloMosaic.StableHlo
open Idealize.ShloMosaic.Pipeline (Dat)

variable {F : FTy → Type} [FloatOps F]

/-- The second layer on the 72 rows, its first 70 output columns. -/
def act72 (h : FVec F S72x1 .f32) (W2 : FVec F S1x518 .f32) (b2 : FVec F S518 .f32) : FVec F S72x70 .f32 :=
  maximumf (addf (Host.dotGeneral dot_S72x1_S1x70_S72x70_1_0_0_1_n_n none h (extractStridedSlice S1x70 ![0, 0] W2 slices_S1x518_S1x70_0_0))
      (broadcastInDim S72x70 ![0, 1] bcast_S1x70_S72x70_0_1 (broadcastInDim S1x70 ![1] bcast_S70_S1x70_1 (extractStridedSlice S70 ![0] b2 slices_S518_S70_0))))
    (broadcastInDim S72x70 ![] bcast_S_S72x70 (constant S_ .f32 0x00000000#32))

/-- Head A's first layer: column 1 of rows 0..63, each entry through the shared scalar layer. -/
def colA (x2 : FVec F S72x70 .f32) (W3a : FVec F S1x1 .f32) (b3a : FVec F S1 .f32) : FVec F S64 .f32 :=
  maximumf (addf (mulf (shapeCast S64 (extractStridedSlice S64x1 ![0, 1] x2 slices_S72x70_S64x1_0_1) shapeCasts_S64x1_S64)
        (broadcastInDim S64 ![] bcast_S_S64 (shapeCast S_ W3a shapeCasts_S1x1_S_)))
      (broadcastInDim S64 ![] bcast_S_S64 (shapeCast S_ b3a shapeCasts_S1_S_)))
    (broadcastInDim S64 ![] bcast_S_S64 (constant S_ .f32 0x00000000#32))

/-- Head A's second layer: each of the 64 scalars against the 80 output weights. -/
def wideA (h3 : FVec F S64 .f32) (W3b : FVec F S1x80 .f32) (b3b : FVec F S80 .f32) : FVec F S64x80 .f32 :=
  maximumf (addf (mulf (broadcastInDim S64x80 ![0, 1] bcast_S64x1_S64x80_0_1 (broadcastInDim S64x1 ![0] bcast_S64_S64x1_0 h3))
        (broadcastInDim S64x80 ![0, 1] bcast_S1x80_S64x80_0_1 (broadcastInDim S1x80 ![1] bcast_S80_S1x80_1 (shapeCast S80 W3b shapeCasts_S1x80_S80))))
      (broadcastInDim S64x80 ![0, 1] bcast_S1x80_S64x80_0_1 (broadcastInDim S1x80 ![1] bcast_S80_S1x80_1 b3b)))
    (broadcastInDim S64x80 ![] bcast_S_S64x80 (constant S_ .f32 0x00000000#32))

/-- Head B's six entries of the second layer's output, stacked. -/
def pick (x2 : FVec F S72x70 .f32) : FVec F S6 .f32 :=
  concatenate S6 0 [⟨S1, broadcastInDim S1 ![] bcast_S_S1 (shapeCast S_ (extractStridedSlice S1x1 ![0, 65] x2 slices_S72x70_S1x1_0_65) shapeCasts_S1x1_S_)⟩,
    ⟨S1, broadcastInDim S1 ![] bcast_S_S1 (shapeCast S_ (extractStridedSlice S1x1 ![64, 69] x2 slices_S72x70_S1x1_64_69) shapeCasts_S1x1_S_)⟩,
    ⟨S1, broadcastInDim S1 ![] bcast_S_S1 (shapeCast S_ (extractStridedSlice S1x1 ![65, 67] x2 slices_S72x70_S1x1_65_67) shapeCasts_S1x1_S_)⟩,
    ⟨S1, broadcastInDim S1 ![] bcast_S_S1 (shapeCast S_ (extractStridedSlice S1x1 ![32, 65] x2 slices_S72x70_S1x1_32_65) shapeCasts_S1x1_S_)⟩,
    ⟨S1, broadcastInDim S1 ![] bcast_S_S1 (shapeCast S_ (extractStridedSlice S1x1 ![66, 69] x2 slices_S72x70_S1x1_66_69) shapeCasts_S1x1_S_)⟩,
    ⟨S1, broadcastInDim S1 ![] bcast_S_S1 (shapeCast S_ (extractStridedSlice S1x1 ![67, 67] x2 slices_S72x70_S1x1_67_67) shapeCasts_S1x1_S_)⟩]
    concatenates_S1_S1_S1_S1_S1_S1_S6_d0

/-- Head B's first layer. -/
def colB (x4 : FVec F S6 .f32) (W4a : FVec F S1x1 .f32) (b4a : FVec F S1 .f32) : FVec F S6 .f32 :=
  maximumf (addf (mulf x4 (broadcastInDim S6 ![] bcast_S_S6 (shapeCast S_ W4a shapeCasts_S1x1_S_)))
      (broadcastInDim S6 ![] bcast_S_S6 (shapeCast S_ b4a shapeCasts_S1_S_)))
    (broadcastInDim S6 ![] bcast_S_S6 (constant S_ .f32 0x00000000#32))

/-- Head B's second layer: each of the 6 scalars against the 513 output weights. -/
def wideB (h4 : FVec F S6 .f32) (W4b : FVec F S1x513 .f32) (b4b : FVec F S513 .f32) : FVec F S6x513 .f32 :=
  maximumf (addf (mulf (broadcastInDim S6x513 ![0, 1] bcast_S6x1_S6x513_0_1 (broadcastInDim S6x1 ![0] bcast_S6_S6x1_0 h4))
        (broadcastInDim S6x513 ![0, 1] bcast_S1x513_S6x513_0_1 (broadcastInDim S1x513 ![1] bcast_S513_S1x513_1 (shapeCast S513 W4b shapeCasts_S1x513_S513))))
      (broadcastInDim S6x513 ![0, 1] bcast_S1x513_S6x513_0_1 (broadcastInDim S1x513 ![1] bcast_S513_S1x513_1 b4b)))
    (broadcastInDim S6x513 ![] bcast_S_S6x513 (constant S_ .f32 0x00000000#32))

/-- The result: head A's table flattened and repeated 80 times, 64 zeros, head B's table flattened. -/
def joined (A : FVec F S64x80 .f32) (B : FVec F S6x513 .f32) : FVec F S412742 .f32 :=
  concatenate S412742 0 [⟨S409600, shapeCast S409600 (broadcastInDim S80x5120 ![0, 1] bcast_S1x5120_S80x5120_0_1
        (shapeCast S1x5120 (shapeCast S5120 A shapeCasts_S64x80_S5120) shapeCasts_S5120_S1x5120)) shapeCasts_S80x5120_S409600⟩,
      ⟨S64, broadcastInDim S64 ![] bcast_S_S64 (constant S_ .f32 0x00000000#32)⟩,
      ⟨S3078, shapeCast S3078 B shapeCasts_S6x513_S3078⟩]
    concatenates_S409600_S64_S3078_S412742_d0

/-- The whole later stretch as one function of the column and the weights. -/
def tailFn (h : FVec F S72x1 .f32) (W2 : FVec F S1x518 .f32) (b2 : FVec F S518 .f32) (W3a : FVec F S1x1 .f32) (b3a : FVec F S1 .f32)
    (W3b : FVec F S1x80 .f32) (b3b : FVec F S80 .f32) (W4a : FVec F S1x1 .f32) (b4a : FVec F S1 .f32)
    (W4b : FVec F S1x513 .f32) (b4b : FVec F S513 .f32) : FVec F S412742 .f32 :=
  joined (wideA (colA (act72 h W2 b2) W3a b3a) W3b b3b) (wideB (colB (pick (act72 h W2 b2)) W4a b4a) W4b b4b)

set_option maxHeartbeats 4000000 in
/-- The fold of the later stretches from any contents, at the result buffer. -/
theorem tail_fold (W : Valuation τ sig (Elt F)) :
    StableHlo.after (List.flatten (tailOps (F := F))) W (Proc.devRef .tc main_v90)
      = tailFn (W (Proc.devRef .tc main_v21)) (W (Proc.devRef .tc main_arg3)) (W (Proc.devRef .tc main_arg4))
          (W (Proc.devRef .tc main_arg5)) (W (Proc.devRef .tc main_arg6)) (W (Proc.devRef .tc main_arg7)) (W (Proc.devRef .tc main_arg8))
          (W (Proc.devRef .tc main_arg9)) (W (Proc.devRef .tc main_arg10)) (W (Proc.devRef .tc main_arg11)) (W (Proc.devRef .tc main_arg12)) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  rfl

end Cert.KernelIdeal.Tail

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KernelStages.lean ====
/-
  The kernel's stages at the ideal values, read at an index.
  The body's payload at row r is max(sum_k X[r, k] * W[k, 0] + B[0, 0], 0): the two changes of float format are the
  identity, the product into a zero accumulator is the plain sum, the 1 x 1 bias is spread down the column. The second
  layer at (r, c) is max(h[r, 0] * W2[0, c] + b2[c], 0), a product over a contracted axis of extent one. Each head's
  scalar layer and wide layer are pointwise in their broadcast operands, and head B's six entries are single entries of
  the second layer's output.
-/
import proofs.«170850_j55181739819745_2_alg».proof.Proof.KernelTail
import proofs.«170850_j55181739819745_2_alg».proof.Proof.LibPlainDot
import proofs.«170850_j55181739819745_2_alg».proof.Proof.LibConcat
import proofs.«170850_j55181739819745_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stages

open Cert.KernelIdeal Cert.KernelIdeal.Gen Cert.KernelIdeal.Tail
open Idealize.ShloMosaic Idealize.ShloMosaic.ValueIdx
open Cert.Spec (zr lay2 head)

/-- A 1 x 1 array made a scalar holds its one entry. -/
theorem scalar_of_1x1 (x : FVec Ideal S1x1 .f32) (j : S_.Idx) : shapeCast S_ x shapeCasts_S1x1_S_ j = x (ix2 (0 : Fin 1) (0 : Fin 1)) :=
  shapeCast_apply x shapeCasts_S1x1_S_ j _ (by
    have h1 : (S1x1.rowMajor (ix2 (0 : Fin 1) (0 : Fin 1))).val < 1 := (S1x1.rowMajor _).isLt
    have h2 : (S_.rowMajor j).val < 1 := (S_.rowMajor j).isLt
    show (S1x1.rowMajor (ix2 (0 : Fin 1) (0 : Fin 1))).val = (S_.rowMajor j).val
    omega)

/-- A length-1 array made a scalar holds its one entry. -/
theorem scalar_of_1 (x : FVec Ideal S1 .f32) (j : S_.Idx) : shapeCast S_ x shapeCasts_S1_S_ j = x (ix1 (0 : Fin 1)) :=
  shapeCast_apply x shapeCasts_S1_S_ j _ (by
    have h1 : (S1.rowMajor (ix1 (0 : Fin 1))).val < 1 := (S1.rowMajor _).isLt
    have h2 : (S_.rowMajor j).val < 1 := (S_.rowMajor j).isLt
    show (S1.rowMajor (ix1 (0 : Fin 1))).val = (S_.rowMajor j).val
    omega)

/-- The body's payload at a row. -/
theorem pay_at (X : FVec Ideal S72x6400 .f32) (W : FVec Ideal S6400x1 .f32) (B : FVec Ideal S1x1 .f32) (r : Fin 72) :
    k0_pay1 (F := Ideal) X W B (ix2 r (0 : Fin 1))
      = max ((∑ k : Fin 6400, X (ix2 r k) * W (ix2 k (0 : Fin 1))) + B (ix2 (0 : Fin 1) (0 : Fin 1))) zr := by
  unfold k0_pay1
  show max ((matmul (F := Ideal) dot_S72x6400_S6400x1_S72x1_1_0_0_1_n_n none (truncf .bf16 (shapeCast S72x6400 X shapeCasts_S72x6400_S72x6400) bitsLt_bf16_f32)
        (truncf .bf16 W bitsLt_bf16_f32) (constant S72x1 .f32 0x00000000#32)) (ix2 r (0 : Fin 1))
      + (broadcastTo S72x1 (shapeCast S1x1 B shapeCasts_S1x1_S1x1) broadcasts_S1x1_S72x1) (ix2 r (0 : Fin 1))) zr = _
  have hm : (matmul (F := Ideal) dot_S72x6400_S6400x1_S72x1_1_0_0_1_n_n none (truncf .bf16 (shapeCast S72x6400 X shapeCasts_S72x6400_S72x6400) bitsLt_bf16_f32)
        (truncf .bf16 W bitsLt_bf16_f32) (constant S72x1 .f32 0x00000000#32)) (ix2 r (0 : Fin 1))
      = ∑ k : Fin 6400, X (ix2 r k) * W (ix2 k (0 : Fin 1)) := by
    refine (Cert.LibPlainDot.matmul_plain 72 6400 1 none (truncf .bf16 (shapeCast S72x6400 X shapeCasts_S72x6400_S72x6400) bitsLt_bf16_f32)
      (truncf .bf16 W bitsLt_bf16_f32) (ix2 r (0 : Fin 1))).trans ?_
    rw [shapeCast_self]
    rfl
  have hb : (broadcastTo S72x1 (shapeCast S1x1 B shapeCasts_S1x1_S1x1) broadcasts_S1x1_S72x1) (ix2 r (0 : Fin 1)) = B (ix2 (0 : Fin 1) (0 : Fin 1)) := by
    rw [shapeCast_self]
    exact broadcastTo_apply B broadcasts_S1x1_S72x1 (ix2 r (0 : Fin 1)) (ix2 (0 : Fin 1) (0 : Fin 1)) (fun a => match a with
      | ⟨0, _⟩ => by show 0 = if (1 : Nat) = 1 then 0 else _; rw [if_pos rfl]
      | ⟨1, _⟩ => by show 0 = if (1 : Nat) = 1 then 0 else _; rw [if_pos rfl])
  rw [hm, hb]

/-- The second layer at an entry. -/
theorem act72_at (h : FVec Ideal S72x1 .f32) (W2 : FVec Ideal S1x518 .f32) (b2 : FVec Ideal S518 .f32) (r : Fin 72) (c : Fin 70) :
    act72 (F := Ideal) h W2 b2 (ix2 r c) = lay2 W2 b2 (h (ix2 r (0 : Fin 1))) (⟨c.val, by have := c.isLt; omega⟩ : Fin 518) := by
  unfold act72 lay2
  have hc : c.val < 70 := c.isLt
  show max ((Host.dotGeneral (F := Ideal) dot_S72x1_S1x70_S72x70_1_0_0_1_n_n none h (extractStridedSlice S1x70 ![0, 0] W2 slices_S1x518_S1x70_0_0)) (ix2 r c)
      + (broadcastInDim S72x70 ![0, 1] bcast_S1x70_S72x70_0_1 (broadcastInDim S1x70 ![1] bcast_S70_S1x70_1 (extractStridedSlice S70 ![0] b2 slices_S518_S70_0))) (ix2 r c))
      ((broadcastInDim S72x70 ![] bcast_S_S72x70 (constant (F := Ideal) S_ .f32 0x00000000#32)) (ix2 r c)) = _
  have hd : (Host.dotGeneral (F := Ideal) dot_S72x1_S1x70_S72x70_1_0_0_1_n_n none h (extractStridedSlice S1x70 ![0, 0] W2 slices_S1x518_S1x70_0_0)) (ix2 r c)
      = h (ix2 r (0 : Fin 1)) * W2 (ix2 (0 : Fin 1) (⟨c.val, by omega⟩ : Fin 518)) := by
    refine (Cert.LibPlainDot.dotGeneral_plain 72 1 70 none h (extractStridedSlice S1x70 ![0, 0] W2 slices_S1x518_S1x70_0_0) (ix2 r c)).trans ?_
    rw [Fin.sum_univ_one]
    refine congrArg (fun z => h (ix2 r (0 : Fin 1)) * z) ?_
    exact extractStridedSlice_apply ![0, 0] W2 slices_S1x518_S1x70_0_0 (ix2 (0 : Fin 1) c) (ix2 (0 : Fin 1) (⟨c.val, by omega⟩ : Fin 518)) (fun a => match a with
      | ⟨0, _⟩ => by show 0 = 0 + 0; omega
      | ⟨1, _⟩ => by show c.val = 0 + c.val; omega)
  have hbias : (broadcastInDim S72x70 ![0, 1] bcast_S1x70_S72x70_0_1 (broadcastInDim S1x70 ![1] bcast_S70_S1x70_1 (extractStridedSlice S70 ![0] b2 slices_S518_S70_0))) (ix2 r c)
      = b2 (ix1 (⟨c.val, by omega⟩ : Fin 518)) := by
    refine (broadcastInDim_apply _ bcast_S1x70_S72x70_0_1 _ (ix2 r c) (ix2 (0 : Fin 1) c) (fun a => match a with
      | ⟨0, _⟩ => by show 0 = if (1 : Nat) = 1 then 0 else _; rw [if_pos rfl]
      | ⟨1, _⟩ => by show c.val = if (70 : Nat) = 1 then 0 else c.val; rw [if_neg (by decide)])).trans ?_
    refine (broadcastInDim_apply _ bcast_S70_S1x70_1 _ (ix2 (0 : Fin 1) c) (ix1 c) (fun a => match a with
      | ⟨0, _⟩ => by show c.val = if (70 : Nat) = 1 then 0 else c.val; rw [if_neg (by decide)])).trans ?_
    exact extractStridedSlice_apply ![0] b2 slices_S518_S70_0 (ix1 c) (ix1 (⟨c.val, by omega⟩ : Fin 518)) (fun a => match a with
      | ⟨0, _⟩ => by show c.val = 0 + c.val; omega)
  have hz : (broadcastInDim S72x70 ![] bcast_S_S72x70 (constant (F := Ideal) S_ .f32 0x00000000#32)) (ix2 r c) = zr :=
    broadcastInDim_apply _ bcast_S_S72x70 _ (ix2 r c) ix0 (fun a => a.elim0)
  rw [hd, hbias, hz]

/-- Head A's scalar layer: entry i reads unit 1 of row i of the second layer. -/
theorem colA_at (x2 : FVec Ideal S72x70 .f32) (Wa : FVec Ideal S1x1 .f32) (ba : FVec Ideal S1 .f32) (i : Fin 64) :
    colA (F := Ideal) x2 Wa ba (ix1 i)
      = max (x2 (ix2 (⟨i.val, by have := i.isLt; omega⟩ : Fin 72) (1 : Fin 70)) * Wa (ix2 (0 : Fin 1) (0 : Fin 1)) + ba (ix1 (0 : Fin 1))) zr := by
  unfold colA
  have hi : i.val < 64 := i.isLt
  show max ((shapeCast S64 (extractStridedSlice S64x1 ![0, 1] x2 slices_S72x70_S64x1_0_1) shapeCasts_S64x1_S64) (ix1 i)
        * (broadcastInDim S64 ![] bcast_S_S64 (shapeCast S_ Wa shapeCasts_S1x1_S_)) (ix1 i)
      + (broadcastInDim S64 ![] bcast_S_S64 (shapeCast S_ ba shapeCasts_S1_S_)) (ix1 i))
      ((broadcastInDim S64 ![] bcast_S_S64 (constant (F := Ideal) S_ .f32 0x00000000#32)) (ix1 i)) = _
  have hx : (shapeCast S64 (extractStridedSlice S64x1 ![0, 1] x2 slices_S72x70_S64x1_0_1) shapeCasts_S64x1_S64) (ix1 i)
      = x2 (ix2 (⟨i.val, by omega⟩ : Fin 72) (1 : Fin 70)) := by
    refine (shapeCast_apply _ shapeCasts_S64x1_S64 (ix1 i) (ix2 i (0 : Fin 1)) (by
      rewrite [Shape.rowMajor_val_two, Shape.rowMajor_val_one]
      show i.val * 1 + 0 = i.val; omega)).trans ?_
    exact extractStridedSlice_apply ![0, 1] x2 slices_S72x70_S64x1_0_1 (ix2 i (0 : Fin 1)) (ix2 (⟨i.val, by omega⟩ : Fin 72) (1 : Fin 70)) (fun a => match a with
      | ⟨0, _⟩ => by show i.val = 0 + i.val; omega
      | ⟨1, _⟩ => by show 1 = 1 + 0; omega)
  have hwa : (broadcastInDim S64 ![] bcast_S_S64 (shapeCast S_ Wa shapeCasts_S1x1_S_)) (ix1 i) = Wa (ix2 (0 : Fin 1) (0 : Fin 1)) :=
    (broadcastInDim_apply _ bcast_S_S64 _ (ix1 i) ix0 (fun a => a.elim0)).trans (scalar_of_1x1 Wa ix0)
  have hba : (broadcastInDim S64 ![] bcast_S_S64 (shapeCast S_ ba shapeCasts_S1_S_)) (ix1 i) = ba (ix1 (0 : Fin 1)) :=
    (broadcastInDim_apply _ bcast_S_S64 _ (ix1 i) ix0 (fun a => a.elim0)).trans (scalar_of_1 ba ix0)
  have hz : (broadcastInDim S64 ![] bcast_S_S64 (constant (F := Ideal) S_ .f32 0x00000000#32)) (ix1 i) = zr :=
    broadcastInDim_apply _ bcast_S_S64 _ (ix1 i) ix0 (fun a => a.elim0)
  rw [hx, hwa, hba, hz]

/-- Head B's scalar layer, pointwise. -/
theorem colB_at (x4 : FVec Ideal S6 .f32) (Wa : FVec Ideal S1x1 .f32) (ba : FVec Ideal S1 .f32) (i : Fin 6) :
    colB (F := Ideal) x4 Wa ba (ix1 i) = max (x4 (ix1 i) * Wa (ix2 (0 : Fin 1) (0 : Fin 1)) + ba (ix1 (0 : Fin 1))) zr := by
  unfold colB
  show max (x4 (ix1 i) * (broadcastInDim S6 ![] bcast_S_S6 (shapeCast S_ Wa shapeCasts_S1x1_S_)) (ix1 i)
      + (broadcastInDim S6 ![] bcast_S_S6 (shapeCast S_ ba shapeCasts_S1_S_)) (ix1 i))
      ((broadcastInDim S6 ![] bcast_S_S6 (constant (F := Ideal) S_ .f32 0x00000000#32)) (ix1 i)) = _
  have hwa : (broadcastInDim S6 ![] bcast_S_S6 (shapeCast S_ Wa shapeCasts_S1x1_S_)) (ix1 i) = Wa (ix2 (0 : Fin 1) (0 : Fin 1)) :=
    (broadcastInDim_apply _ bcast_S_S6 _ (ix1 i) ix0 (fun a => a.elim0)).trans (scalar_of_1x1 Wa ix0)
  have hba : (broadcastInDim S6 ![] bcast_S_S6 (shapeCast S_ ba shapeCasts_S1_S_)) (ix1 i) = ba (ix1 (0 : Fin 1)) :=
    (broadcastInDim_apply _ bcast_S_S6 _ (ix1 i) ix0 (fun a => a.elim0)).trans (scalar_of_1 ba ix0)
  have hz : (broadcastInDim S6 ![] bcast_S_S6 (constant (F := Ideal) S_ .f32 0x00000000#32)) (ix1 i) = zr :=
    broadcastInDim_apply _ bcast_S_S6 _ (ix1 i) ix0 (fun a => a.elim0)
  rw [hwa, hba, hz]

/-- wideA: entry (i, q) is max(u[i] * Wb[0, q] + bb[q], 0). -/
theorem wideA_at (u : FVec Ideal S64 .f32) (Wb : FVec Ideal S1x80 .f32) (bb : FVec Ideal S80 .f32) (i : Fin 64) (q : Fin 80) :
    wideA (F := Ideal) u Wb bb (ix2 i q) = max (u (ix1 i) * Wb (ix2 (0 : Fin 1) q) + bb (ix1 q)) zr := by
  unfold wideA
  show max ((broadcastInDim S64x80 ![0, 1] bcast_S64x1_S64x80_0_1 (broadcastInDim S64x1 ![0] bcast_S64_S64x1_0 u)) (ix2 i q)
        * (broadcastInDim S64x80 ![0, 1] bcast_S1x80_S64x80_0_1 (broadcastInDim S1x80 ![1] bcast_S80_S1x80_1 (shapeCast S80 Wb shapeCasts_S1x80_S80))) (ix2 i q)
      + (broadcastInDim S64x80 ![0, 1] bcast_S1x80_S64x80_0_1 (broadcastInDim S1x80 ![1] bcast_S80_S1x80_1 bb)) (ix2 i q))
      ((broadcastInDim S64x80 ![] bcast_S_S64x80 (constant (F := Ideal) S_ .f32 0x00000000#32)) (ix2 i q)) = _
  have hq : q.val < 80 := q.isLt
  have hu : (broadcastInDim S64x80 ![0, 1] bcast_S64x1_S64x80_0_1 (broadcastInDim S64x1 ![0] bcast_S64_S64x1_0 u)) (ix2 i q) = u (ix1 i) := by
    refine (broadcastInDim_apply _ bcast_S64x1_S64x80_0_1 _ (ix2 i q) (ix2 i (0 : Fin 1)) (fun a => match a with
      | ⟨0, _⟩ => by show i.val = if (64 : Nat) = 1 then 0 else i.val; rw [if_neg (by decide)]
      | ⟨1, _⟩ => by show 0 = if (1 : Nat) = 1 then 0 else _; rw [if_pos rfl])).trans ?_
    exact broadcastInDim_apply _ bcast_S64_S64x1_0 u (ix2 i (0 : Fin 1)) (ix1 i) (fun a => match a with
      | ⟨0, _⟩ => by show i.val = if (64 : Nat) = 1 then 0 else i.val; rw [if_neg (by decide)])
  have hw : (broadcastInDim S64x80 ![0, 1] bcast_S1x80_S64x80_0_1 (broadcastInDim S1x80 ![1] bcast_S80_S1x80_1 (shapeCast S80 Wb shapeCasts_S1x80_S80))) (ix2 i q) = Wb (ix2 (0 : Fin 1) q) := by
    refine (broadcastInDim_apply _ bcast_S1x80_S64x80_0_1 _ (ix2 i q) (ix2 (0 : Fin 1) q) (fun a => match a with
      | ⟨0, _⟩ => by show 0 = if (1 : Nat) = 1 then 0 else _; rw [if_pos rfl]
      | ⟨1, _⟩ => by show q.val = if (80 : Nat) = 1 then 0 else q.val; rw [if_neg (by decide)])).trans ?_
    refine (broadcastInDim_apply _ bcast_S80_S1x80_1 _ (ix2 (0 : Fin 1) q) (ix1 q) (fun a => match a with
      | ⟨0, _⟩ => by show q.val = if (80 : Nat) = 1 then 0 else q.val; rw [if_neg (by decide)])).trans ?_
    exact shapeCast_apply Wb shapeCasts_S1x80_S80 (ix1 q) (ix2 (0 : Fin 1) q) (by
      rewrite [Shape.rowMajor_val_two, Shape.rowMajor_val_one]
      show 0 * 80 + q.val = q.val; omega)
  have hb : (broadcastInDim S64x80 ![0, 1] bcast_S1x80_S64x80_0_1 (broadcastInDim S1x80 ![1] bcast_S80_S1x80_1 bb)) (ix2 i q) = bb (ix1 q) := by
    refine (broadcastInDim_apply _ bcast_S1x80_S64x80_0_1 _ (ix2 i q) (ix2 (0 : Fin 1) q) (fun a => match a with
      | ⟨0, _⟩ => by show 0 = if (1 : Nat) = 1 then 0 else _; rw [if_pos rfl]
      | ⟨1, _⟩ => by show q.val = if (80 : Nat) = 1 then 0 else q.val; rw [if_neg (by decide)])).trans ?_
    exact broadcastInDim_apply _ bcast_S80_S1x80_1 bb (ix2 (0 : Fin 1) q) (ix1 q) (fun a => match a with
      | ⟨0, _⟩ => by show q.val = if (80 : Nat) = 1 then 0 else q.val; rw [if_neg (by decide)])
  have hz : (broadcastInDim S64x80 ![] bcast_S_S64x80 (constant (F := Ideal) S_ .f32 0x00000000#32)) (ix2 i q) = zr :=
    broadcastInDim_apply _ bcast_S_S64x80 _ (ix2 i q) ix0 (fun a => a.elim0)
  rw [hu, hw, hb, hz]

/-- wideB: entry (i, q) is max(u[i] * Wb[0, q] + bb[q], 0). -/
theorem wideB_at (u : FVec Ideal S6 .f32) (Wb : FVec Ideal S1x513 .f32) (bb : FVec Ideal S513 .f32) (i : Fin 6) (q : Fin 513) :
    wideB (F := Ideal) u Wb bb (ix2 i q) = max (u (ix1 i) * Wb (ix2 (0 : Fin 1) q) + bb (ix1 q)) zr := by
  unfold wideB
  show max ((broadcastInDim S6x513 ![0, 1] bcast_S6x1_S6x513_0_1 (broadcastInDim S6x1 ![0] bcast_S6_S6x1_0 u)) (ix2 i q)
        * (broadcastInDim S6x513 ![0, 1] bcast_S1x513_S6x513_0_1 (broadcastInDim S1x513 ![1] bcast_S513_S1x513_1 (shapeCast S513 Wb shapeCasts_S1x513_S513))) (ix2 i q)
      + (broadcastInDim S6x513 ![0, 1] bcast_S1x513_S6x513_0_1 (broadcastInDim S1x513 ![1] bcast_S513_S1x513_1 bb)) (ix2 i q))
      ((broadcastInDim S6x513 ![] bcast_S_S6x513 (constant (F := Ideal) S_ .f32 0x00000000#32)) (ix2 i q)) = _
  have hq : q.val < 513 := q.isLt
  have hu : (broadcastInDim S6x513 ![0, 1] bcast_S6x1_S6x513_0_1 (broadcastInDim S6x1 ![0] bcast_S6_S6x1_0 u)) (ix2 i q) = u (ix1 i) := by
    refine (broadcastInDim_apply _ bcast_S6x1_S6x513_0_1 _ (ix2 i q) (ix2 i (0 : Fin 1)) (fun a => match a with
      | ⟨0, _⟩ => by show i.val = if (6 : Nat) = 1 then 0 else i.val; rw [if_neg (by decide)]
      | ⟨1, _⟩ => by show 0 = if (1 : Nat) = 1 then 0 else _; rw [if_pos rfl])).trans ?_
    exact broadcastInDim_apply _ bcast_S6_S6x1_0 u (ix2 i (0 : Fin 1)) (ix1 i) (fun a => match a with
      | ⟨0, _⟩ => by show i.val = if (6 : Nat) = 1 then 0 else i.val; rw [if_neg (by decide)])
  have hw : (broadcastInDim S6x513 ![0, 1] bcast_S1x513_S6x513_0_1 (broadcastInDim S1x513 ![1] bcast_S513_S1x513_1 (shapeCast S513 Wb shapeCasts_S1x513_S513))) (ix2 i q) = Wb (ix2 (0 : Fin 1) q) := by
    refine (broadcastInDim_apply _ bcast_S1x513_S6x513_0_1 _ (ix2 i q) (ix2 (0 : Fin 1) q) (fun a => match a with
      | ⟨0, _⟩ => by show 0 = if (1 : Nat) = 1 then 0 else _; rw [if_pos rfl]
      | ⟨1, _⟩ => by show q.val = if (513 : Nat) = 1 then 0 else q.val; rw [if_neg (by decide)])).trans ?_
    refine (broadcastInDim_apply _ bcast_S513_S1x513_1 _ (ix2 (0 : Fin 1) q) (ix1 q) (fun a => match a with
      | ⟨0, _⟩ => by show q.val = if (513 : Nat) = 1 then 0 else q.val; rw [if_neg (by decide)])).trans ?_
    exact shapeCast_apply Wb shapeCasts_S1x513_S513 (ix1 q) (ix2 (0 : Fin 1) q) (by
      rewrite [Shape.rowMajor_val_two, Shape.rowMajor_val_one]
      show 0 * 513 + q.val = q.val; omega)
  have hb : (broadcastInDim S6x513 ![0, 1] bcast_S1x513_S6x513_0_1 (broadcastInDim S1x513 ![1] bcast_S513_S1x513_1 bb)) (ix2 i q) = bb (ix1 q) := by
    refine (broadcastInDim_apply _ bcast_S1x513_S6x513_0_1 _ (ix2 i q) (ix2 (0 : Fin 1) q) (fun a => match a with
      | ⟨0, _⟩ => by show 0 = if (1 : Nat) = 1 then 0 else _; rw [if_pos rfl]
      | ⟨1, _⟩ => by show q.val = if (513 : Nat) = 1 then 0 else q.val; rw [if_neg (by decide)])).trans ?_
    exact broadcastInDim_apply _ bcast_S513_S1x513_1 bb (ix2 (0 : Fin 1) q) (ix1 q) (fun a => match a with
      | ⟨0, _⟩ => by show q.val = if (513 : Nat) = 1 then 0 else q.val; rw [if_neg (by decide)])
  have hz : (broadcastInDim S6x513 ![] bcast_S_S6x513 (constant (F := Ideal) S_ .f32 0x00000000#32)) (ix2 i q) = zr :=
    broadcastInDim_apply _ bcast_S_S6x513 _ (ix2 i q) ix0 (fun a => a.elim0)
  rw [hu, hw, hb, hz]

/-- One entry of the second layer's output, as a length-1 array. -/
theorem entry_at (x2 : FVec Ideal S72x70 .f32) (r c : Nat) (h : S72x70.Slices ![r, c] S1x1) (hr : r < 72) (hc : c < 70) (j : S1.Idx) :
    (broadcastInDim S1 ![] bcast_S_S1 (shapeCast S_ (extractStridedSlice S1x1 ![r, c] x2 h) shapeCasts_S1x1_S_)) j
      = x2 (ix2 (⟨r, hr⟩ : Fin 72) (⟨c, hc⟩ : Fin 70)) := by
  refine (broadcastInDim_apply _ bcast_S_S1 _ j ix0 (fun a => a.elim0)).trans ?_
  refine (scalar_of_1x1 _ ix0).trans ?_
  exact extractStridedSlice_apply ![r, c] x2 h (ix2 (0 : Fin 1) (0 : Fin 1)) (ix2 (⟨r, hr⟩ : Fin 72) (⟨c, hc⟩ : Fin 70)) (fun a => match a with
    | ⟨0, _⟩ => by show r = r + 0; omega
    | ⟨1, _⟩ => by show c = c + 0; omega)

/-- The rows and units of head B's six entries. -/
def pickRow : Fin 6 → Fin 72 := ![0, 64, 65, 32, 66, 67]
def pickUnit : Fin 6 → Fin 70 := ![65, 69, 67, 65, 69, 67]

/-- The six pieces of head B's stack. -/
abbrev pickPieces (x2 : FVec Ideal S72x70 .f32) : List ((s : Shape) × (s.Idx → Ideal .f32)) :=
  [⟨S1, broadcastInDim S1 ![] bcast_S_S1 (shapeCast S_ (extractStridedSlice S1x1 ![0, 65] x2 slices_S72x70_S1x1_0_65) shapeCasts_S1x1_S_)⟩,
    ⟨S1, broadcastInDim S1 ![] bcast_S_S1 (shapeCast S_ (extractStridedSlice S1x1 ![64, 69] x2 slices_S72x70_S1x1_64_69) shapeCasts_S1x1_S_)⟩,
    ⟨S1, broadcastInDim S1 ![] bcast_S_S1 (shapeCast S_ (extractStridedSlice S1x1 ![65, 67] x2 slices_S72x70_S1x1_65_67) shapeCasts_S1x1_S_)⟩,
    ⟨S1, broadcastInDim S1 ![] bcast_S_S1 (shapeCast S_ (extractStridedSlice S1x1 ![32, 65] x2 slices_S72x70_S1x1_32_65) shapeCasts_S1x1_S_)⟩,
    ⟨S1, broadcastInDim S1 ![] bcast_S_S1 (shapeCast S_ (extractStridedSlice S1x1 ![66, 69] x2 slices_S72x70_S1x1_66_69) shapeCasts_S1x1_S_)⟩,
    ⟨S1, broadcastInDim S1 ![] bcast_S_S1 (shapeCast S_ (extractStridedSlice S1x1 ![67, 67] x2 slices_S72x70_S1x1_67_67) shapeCasts_S1x1_S_)⟩]

/-- Head B's stack at p is the second layer's output at (pickRow p, pickUnit p). -/
theorem pick_at (x2 : FVec Ideal S72x70 .f32) (p : Fin 6) : pick (F := Ideal) x2 (ix1 p) = x2 (ix2 (pickRow p) (pickUnit p)) := by
  have hpick : pick (F := Ideal) x2 = concatenate S6 0 (pickPieces x2) concatenates_S1_S1_S1_S1_S1_S1_S6_d0 := rfl
  rw [hpick]
  have off : ∀ (p' : Fin 6) (b : Fin 1), Fin.cast (rfl : (1 : Nat) = 1) b ≠ (0 : Fin 1) →
      ((ix1 (0 : Fin 1) : S1.Idx) b).val = ((ix1 p' : S6.Idx) (Fin.cast rfl b)).val := fun p' b hb =>
    match b, hb with
    | ⟨0, _⟩, hb => absurd rfl hb
  fin_cases p
  · exact (Cert.LibConcat.concatenate_apply_of_locate (t := S6) (0 : Fin 1) (pickPieces x2) concatenates_S1_S1_S1_S1_S1_S1_S6_d0 (ix1 (0 : Fin 6))
      ⟨⟨0, (show (0 : Nat) < 6 by decide)⟩, ⟨0, (show (0 : Nat) < 1 by decide)⟩⟩ rfl (show (0 : Nat) < 6 by decide) rfl (ix1 (0 : Fin 1)) (off 0) rfl).trans
      (entry_at x2 0 65 slices_S72x70_S1x1_0_65 (by decide) (by decide) _)
  · exact (Cert.LibConcat.concatenate_apply_of_locate (t := S6) (0 : Fin 1) (pickPieces x2) concatenates_S1_S1_S1_S1_S1_S1_S6_d0 (ix1 (1 : Fin 6))
      ⟨⟨1, (show (1 : Nat) < 6 by decide)⟩, ⟨0, (show (0 : Nat) < 1 by decide)⟩⟩ rfl (show (1 : Nat) < 6 by decide) rfl (ix1 (0 : Fin 1)) (off 1) rfl).trans
      (entry_at x2 64 69 slices_S72x70_S1x1_64_69 (by decide) (by decide) _)
  · exact (Cert.LibConcat.concatenate_apply_of_locate (t := S6) (0 : Fin 1) (pickPieces x2) concatenates_S1_S1_S1_S1_S1_S1_S6_d0 (ix1 (2 : Fin 6))
      ⟨⟨2, (show (2 : Nat) < 6 by decide)⟩, ⟨0, (show (0 : Nat) < 1 by decide)⟩⟩ rfl (show (2 : Nat) < 6 by decide) rfl (ix1 (0 : Fin 1)) (off 2) rfl).trans
      (entry_at x2 65 67 slices_S72x70_S1x1_65_67 (by decide) (by decide) _)
  · exact (Cert.LibConcat.concatenate_apply_of_locate (t := S6) (0 : Fin 1) (pickPieces x2) concatenates_S1_S1_S1_S1_S1_S1_S6_d0 (ix1 (3 : Fin 6))
      ⟨⟨3, (show (3 : Nat) < 6 by decide)⟩, ⟨0, (show (0 : Nat) < 1 by decide)⟩⟩ rfl (show (3 : Nat) < 6 by decide) rfl (ix1 (0 : Fin 1)) (off 3) rfl).trans
      (entry_at x2 32 65 slices_S72x70_S1x1_32_65 (by decide) (by decide) _)
  · exact (Cert.LibConcat.concatenate_apply_of_locate (t := S6) (0 : Fin 1) (pickPieces x2) concatenates_S1_S1_S1_S1_S1_S1_S6_d0 (ix1 (4 : Fin 6))
      ⟨⟨4, (show (4 : Nat) < 6 by decide)⟩, ⟨0, (show (0 : Nat) < 1 by decide)⟩⟩ rfl (show (4 : Nat) < 6 by decide) rfl (ix1 (0 : Fin 1)) (off 4) rfl).trans
      (entry_at x2 66 69 slices_S72x70_S1x1_66_69 (by decide) (by decide) _)
  · exact (Cert.LibConcat.concatenate_apply_of_locate (t := S6) (0 : Fin 1) (pickPieces x2) concatenates_S1_S1_S1_S1_S1_S1_S6_d0 (ix1 (5 : Fin 6))
      ⟨⟨5, (show (5 : Nat) < 6 by decide)⟩, ⟨0, (show (0 : Nat) < 1 by decide)⟩⟩ rfl (show (5 : Nat) < 6 by decide) rfl (ix1 (0 : Fin 1)) (off 5) rfl).trans
      (entry_at x2 67 67 slices_S72x70_S1x1_67_67 (by decide) (by decide) _)

end Cert.KernelIdeal.Stages

end
-- ==== Proof.KernelValue.lean ====
/-
  The kernel program's result. After the region the 72 x 1 column holds, at a row whose gathered row is frame R, the
  spec's first layer of frame R; rows 0..63 are frames 64 i and rows 64..67 are frames 682, 1365, 2730, 3413. Head A reads
  rows 0..63 at unit 1, head B reads rows 0, 64, 65, 32, 66, 67 at units 65, 69, 67, 65, 69, 67 — frames
  0, 682, 1365, 2048, 2730, 3413. So the two heads are the spec's two tables, and the result buffer is those tables joined.
-/
import proofs.«170850_j55181739819745_2_alg».proof.Proof.FrameIdeal
import proofs.«170850_j55181739819745_2_alg».proof.Proof.KernelHidden
import proofs.«170850_j55181739819745_2_alg».proof.Proof.KernelGather
import proofs.«170850_j55181739819745_2_alg».proof.Proof.KernelStages

set_option maxRecDepth 16384

noncomputable section

namespace Cert.KernelIdeal.KValue

open Cert.KernelIdeal Cert.KernelIdeal.Gen Cert.KernelIdeal.Frame Cert.KernelIdeal.Tail
open Idealize.ShloMosaic Idealize.ShloMosaic.TcCoe Idealize.SL.Sem Idealize.ShloMosaic.ValueIdx
open Idealize.ShloMosaic.Pipeline (Dat)
open Cert.Spec

variable (m : (ℓ : Loc nD τ sig) → Buf (Elt Ideal) ℓ) (ρ : Dev nD → PrngReg)

/-- The column after the region, as an array over the 72 rows. -/
abbrev column (c : Dev nD) : FVec Ideal S72x1 .f32 := (dats m 0 c).arrAt 3 cfg0.N

/-- The column at a row whose gathered row is frame R is the first layer of frame R. -/
theorem column_at (c : Dev nD) (r : Fin 72) (R : Fin 4096)
    (hrow : ∀ k : Fin 6400, Gather.rows72 (F := Ideal) (m ((c : Thread nD τ).loc main_arg0)) (ix2 r k) = (m ((c : Thread nD τ).loc main_arg0)) (pix R k)) :
    column m c (ix2 r (0 : Fin 1)) = hid (m ((c : Thread nD τ).loc main_arg0)) (m ((c : Thread nD τ).loc main_arg1)) (m ((c : Thread nD τ).loc main_arg2)) R := by
  have hfin : column m c = k0_pay1 (F := Ideal) (Gather.rows72 (F := Ideal) (m ((c : Thread nD τ).loc main_arg0))) (m ((c : Thread nD τ).loc main_arg1)) (shapeCast S1x1 (m ((c : Thread nD τ).loc main_arg2)) shapeCasts_S1_S1x1) := by
    show (dats m 0 c).arrAt 3 cfg0.N = _
    rw [Hidden.final m c, Gather.rows_fold m c, Gather.bias_fold m c, V_of_not_written m c main_arg1 (by decide)]
  rw [hfin, Stages.pay_at]
  unfold hid
  have hb : (shapeCast S1x1 (m ((c : Thread nD τ).loc main_arg2)) shapeCasts_S1_S1x1) (ix2 (0 : Fin 1) (0 : Fin 1)) = (m ((c : Thread nD τ).loc main_arg2)) (ix1 (0 : Fin 1)) :=
    shapeCast_apply _ shapeCasts_S1_S1x1 (ix2 (0 : Fin 1) (0 : Fin 1)) (ix1 (0 : Fin 1)) (by
      have h1 : (S1.rowMajor (ix1 (0 : Fin 1))).val < 1 := (S1.rowMajor _).isLt
      have h2 : (S1x1.rowMajor (ix2 (0 : Fin 1) (0 : Fin 1))).val < 1 := (S1x1.rowMajor _).isLt
      show (S1.rowMajor (ix1 (0 : Fin 1))).val = (S1x1.rowMajor (ix2 (0 : Fin 1) (0 : Fin 1))).val
      omega)
  rw [hb]
  simp only [hrow]

/-- Head A of the kernel is the spec's table A. -/
theorem headA (c : Dev nD) :
    wideA (F := Ideal) (colA (act72 (column m c) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8))
      = tableA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  obtain ⟨i, q, rfl⟩ : ∃ (i : Fin 64) (q : Fin 80), j = ix2 i q := ⟨j 0, j 1, eq_ix2 j⟩
  rw [Stages.wideA_at, Stages.colA_at, Stages.act72_at,
    column_at m c (⟨i.val, by have := i.isLt; omega⟩ : Fin 72) (⟨64 * i.val, by have := i.isLt; omega⟩ : Fin 4096) (fun k => Gather.rows72_head _ i k)]
  rfl

/-- Head B of the kernel is the spec's table B. -/
theorem headB (c : Dev nD) :
    wideB (F := Ideal) (colB (pick (act72 (column m c) (m ((c : Thread nD τ).loc main_arg3)) (m ((c : Thread nD τ).loc main_arg4)))) (m ((c : Thread nD τ).loc main_arg9)) (m ((c : Thread nD τ).loc main_arg10))) (m ((c : Thread nD τ).loc main_arg11)) (m ((c : Thread nD τ).loc main_arg12))
      = tableB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) := by
  funext j
  obtain ⟨p, q, rfl⟩ : ∃ (p : Fin 6) (q : Fin 513), j = ix2 p q := ⟨j 0, j 1, eq_ix2 j⟩
  rw [Stages.wideB_at, Stages.colB_at, Stages.pick_at, Stages.act72_at]
  have hH : column m c (ix2 (Stages.pickRow p) (0 : Fin 1)) = hid (m ((c : Thread nD τ).loc main_arg0)) (m ((c : Thread nD τ).loc main_arg1)) (m ((c : Thread nD τ).loc main_arg2)) (rowB p) := by
    fin_cases p
    · exact column_at m c (⟨0, by decide⟩ : Fin 72) (⟨0, by decide⟩ : Fin 4096) (fun k => Gather.rows72_head _ (0 : Fin 64) k)
    · exact column_at m c (⟨64, by decide⟩ : Fin 72) (⟨682, by decide⟩ : Fin 4096) (fun k => Gather.rows72_extra _ (0 : Fin 4) k)
    · exact column_at m c (⟨65, by decide⟩ : Fin 72) (⟨1365, by decide⟩ : Fin 4096) (fun k => Gather.rows72_extra _ (1 : Fin 4) k)
    · exact column_at m c (⟨32, by decide⟩ : Fin 72) (⟨2048, by decide⟩ : Fin 4096) (fun k => Gather.rows72_head _ (32 : Fin 64) k)
    · exact column_at m c (⟨66, by decide⟩ : Fin 72) (⟨2730, by decide⟩ : Fin 4096) (fun k => Gather.rows72_extra _ (2 : Fin 4) k)
    · exact column_at m c (⟨67, by decide⟩ : Fin 72) (⟨3413, by decide⟩ : Fin 4096) (fun k => Gather.rows72_extra _ (3 : Fin 4) k)
  have hU : (⟨(Stages.pickUnit p).val, by have := (Stages.pickUnit p).isLt; omega⟩ : Fin 518) = unitB p := by
    fin_cases p <;> rfl
  rw [hH, hU]
  rfl

/-- THE RESULT BUFFER after the run's later stretches: the two tables joined. -/
theorem result_eq (c : Dev nD) :
    Pipeline.afterTail₀ cfgs (dats m) 0 (V0 m) tailOps c main_v90
      = joined (F := Ideal) (tableA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
          (tableB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12))) := by
  unfold Pipeline.afterTail₀
  rw [tail_fold]
  have hcol : Pipeline.withArrays spec0 c (V0 m c) (fun w => (dats m 0 c).arrAt w cfg0.N) (Proc.devRef .tc main_v21) = column m c :=
    Pipeline.withArrays_arr spec0 launch0.win.arr_inj c (V0 m c) (fun w => (dats m 0 c).arrAt w cfg0.N) 3
  have h3 : Pipeline.withArrays spec0 c (V0 m c) (fun w => (dats m 0 c).arrAt w cfg0.N) (Proc.devRef .tc main_arg3) = (m ((c : Thread nD τ).loc main_arg3)) :=
    (Pipeline.withArrays_of_ne spec0 c (V0 m c) _ main_arg3 (by decide)).trans (V_of_not_written m c main_arg3 (by decide))
  have h4 : Pipeline.withArrays spec0 c (V0 m c) (fun w => (dats m 0 c).arrAt w cfg0.N) (Proc.devRef .tc main_arg4) = (m ((c : Thread nD τ).loc main_arg4)) :=
    (Pipeline.withArrays_of_ne spec0 c (V0 m c) _ main_arg4 (by decide)).trans (V_of_not_written m c main_arg4 (by decide))
  have h5 : Pipeline.withArrays spec0 c (V0 m c) (fun w => (dats m 0 c).arrAt w cfg0.N) (Proc.devRef .tc main_arg5) = (m ((c : Thread nD τ).loc main_arg5)) :=
    (Pipeline.withArrays_of_ne spec0 c (V0 m c) _ main_arg5 (by decide)).trans (V_of_not_written m c main_arg5 (by decide))
  have h6 : Pipeline.withArrays spec0 c (V0 m c) (fun w => (dats m 0 c).arrAt w cfg0.N) (Proc.devRef .tc main_arg6) = (m ((c : Thread nD τ).loc main_arg6)) :=
    (Pipeline.withArrays_of_ne spec0 c (V0 m c) _ main_arg6 (by decide)).trans (V_of_not_written m c main_arg6 (by decide))
  have h7 : Pipeline.withArrays spec0 c (V0 m c) (fun w => (dats m 0 c).arrAt w cfg0.N) (Proc.devRef .tc main_arg7) = (m ((c : Thread nD τ).loc main_arg7)) :=
    (Pipeline.withArrays_of_ne spec0 c (V0 m c) _ main_arg7 (by decide)).trans (V_of_not_written m c main_arg7 (by decide))
  have h8 : Pipeline.withArrays spec0 c (V0 m c) (fun w => (dats m 0 c).arrAt w cfg0.N) (Proc.devRef .tc main_arg8) = (m ((c : Thread nD τ).loc main_arg8)) :=
    (Pipeline.withArrays_of_ne spec0 c (V0 m c) _ main_arg8 (by decide)).trans (V_of_not_written m c main_arg8 (by decide))
  have h9 : Pipeline.withArrays spec0 c (V0 m c) (fun w => (dats m 0 c).arrAt w cfg0.N) (Proc.devRef .tc main_arg9) = (m ((c : Thread nD τ).loc main_arg9)) :=
    (Pipeline.withArrays_of_ne spec0 c (V0 m c) _ main_arg9 (by decide)).trans (V_of_not_written m c main_arg9 (by decide))
  have h10 : Pipeline.withArrays spec0 c (V0 m c) (fun w => (dats m 0 c).arrAt w cfg0.N) (Proc.devRef .tc main_arg10) = (m ((c : Thread nD τ).loc main_arg10)) :=
    (Pipeline.withArrays_of_ne spec0 c (V0 m c) _ main_arg10 (by decide)).trans (V_of_not_written m c main_arg10 (by decide))
  have h11 : Pipeline.withArrays spec0 c (V0 m c) (fun w => (dats m 0 c).arrAt w cfg0.N) (Proc.devRef .tc main_arg11) = (m ((c : Thread nD τ).loc main_arg11)) :=
    (Pipeline.withArrays_of_ne spec0 c (V0 m c) _ main_arg11 (by decide)).trans (V_of_not_written m c main_arg11 (by decide))
  have h12 : Pipeline.withArrays spec0 c (V0 m c) (fun w => (dats m 0 c).arrAt w cfg0.N) (Proc.devRef .tc main_arg12) = (m ((c : Thread nD τ).loc main_arg12)) :=
    (Pipeline.withArrays_of_ne spec0 c (V0 m c) _ main_arg12 (by decide)).trans (V_of_not_written m c main_arg12 (by decide))
  rw [hcol, h3, h4, h5, h6, h7, h8, h9, h10, h11, h12]
  unfold tailFn
  rw [headA, headB]

/-- THE RUN of the idealized kernel program, read: every weakly fair execution terminates with the result buffer at the
    two tables joined and the argument arrays as launched. -/
theorem run : θ_run defs (onTc (τ := τ) (main (F := Ideal))) ⟨m, fun _ => 0, ρ⟩ fun r => ∀ c : Dev nD,
      r.2.mem ((c.tc : Thread nD τ).loc main_v90)
        = joined (F := Ideal) (tableA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
            (tableB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c =>
      ⟨(((h c).2 main_v90 (Pipeline.mem_restRefs_of main_v90 (by decide) (by decide))).trans (result_eq m c)),
      (((h c).2 main_arg0 (Pipeline.mem_restRefs_of main_arg0 (by decide) (by decide))).trans ((W_of_not_written m (dats m) c main_arg0 (by decide) (by decide)).trans (V_of_not_written m c main_arg0 (by decide)))),
      ((h c).1 1).trans (((dats m 0 c).arrAt_in 1 rfl _).trans ((A_eq m c 1).trans (V_of_not_written m c main_arg1 (by decide)))),
      (((h c).2 main_arg2 (Pipeline.mem_restRefs_of main_arg2 (by decide) (by decide))).trans ((W_of_not_written m (dats m) c main_arg2 (by decide) (by decide)).trans (V_of_not_written m c main_arg2 (by decide)))),
      (((h c).2 main_arg3 (Pipeline.mem_restRefs_of main_arg3 (by decide) (by decide))).trans ((W_of_not_written m (dats m) c main_arg3 (by decide) (by decide)).trans (V_of_not_written m c main_arg3 (by decide)))),
      (((h c).2 main_arg4 (Pipeline.mem_restRefs_of main_arg4 (by decide) (by decide))).trans ((W_of_not_written m (dats m) c main_arg4 (by decide) (by decide)).trans (V_of_not_written m c main_arg4 (by decide)))),
      (((h c).2 main_arg5 (Pipeline.mem_restRefs_of main_arg5 (by decide) (by decide))).trans ((W_of_not_written m (dats m) c main_arg5 (by decide) (by decide)).trans (V_of_not_written m c main_arg5 (by decide)))),
      (((h c).2 main_arg6 (Pipeline.mem_restRefs_of main_arg6 (by decide) (by decide))).trans ((W_of_not_written m (dats m) c main_arg6 (by decide) (by decide)).trans (V_of_not_written m c main_arg6 (by decide)))),
      (((h c).2 main_arg7 (Pipeline.mem_restRefs_of main_arg7 (by decide) (by decide))).trans ((W_of_not_written m (dats m) c main_arg7 (by decide) (by decide)).trans (V_of_not_written m c main_arg7 (by decide)))),
      (((h c).2 main_arg8 (Pipeline.mem_restRefs_of main_arg8 (by decide) (by decide))).trans ((W_of_not_written m (dats m) c main_arg8 (by decide) (by decide)).trans (V_of_not_written m c main_arg8 (by decide)))),
      (((h c).2 main_arg9 (Pipeline.mem_restRefs_of main_arg9 (by decide) (by decide))).trans ((W_of_not_written m (dats m) c main_arg9 (by decide) (by decide)).trans (V_of_not_written m c main_arg9 (by decide)))),
      (((h c).2 main_arg10 (Pipeline.mem_restRefs_of main_arg10 (by decide) (by decide))).trans ((W_of_not_written m (dats m) c main_arg10 (by decide) (by decide)).trans (V_of_not_written m c main_arg10 (by decide)))),
      (((h c).2 main_arg11 (Pipeline.mem_restRefs_of main_arg11 (by decide) (by decide))).trans ((W_of_not_written m (dats m) c main_arg11 (by decide) (by decide)).trans (V_of_not_written m c main_arg11 (by decide)))),
      (((h c).2 main_arg12 (Pipeline.mem_restRefs_of main_arg12 (by decide) (by decide))).trans ((W_of_not_written m (dats m) c main_arg12 (by decide) (by decide)).trans (V_of_not_written m c main_arg12 (by decide))))⟩)
    (run_main m ρ)

end Cert.KernelIdeal.KValue

end
-- ==== Proof.RefRead.lean ====
/-
  The reference, read index by index down to the argument arrays.
  Its first layer at row r is the spec's `hid` of frame r (the 4096 x 6400 product against the weight column is a sum
  over the 6400 entries of the frame, the flattening of the four-axis input being row-major); its second layer at (r, c) is
  `lay2` of that; the reshape of the leading 64 columns to 64 x 4096 read in column 1 lands at flat position 4096 i + 1 of a
  4096 x 64 table, which is row 64 i, column 1; the reshape of columns 64..69 to 6 x 4096 read in column 1 lands at flat
  position 4096 i + 1 of a 4096 x 6 table, which is row (4096 i + 1) / 6, column 64 + (4096 i + 1) % 6.
-/
import proofs.«170850_j55181739819745_2_alg».proof.Proof.Gen.ReferenceIdeal.Read
import proofs.«170850_j55181739819745_2_alg».proof.Proof.Spec

set_option maxRecDepth 16384

noncomputable section

namespace Cert.ReferenceIdeal.RefRead

open Cert.ReferenceIdeal Cert.ReferenceIdeal.Gen Cert.ReferenceIdeal.Read
open Idealize.ShloMosaic Idealize.ShloMosaic.ValueIdx Cert.Spec

variable (x0 : (⟨S4096x80x80x1, .f32⟩ : BufTy).Contents (Elt Ideal)) (x1 : (⟨S6400x1, .f32⟩ : BufTy).Contents (Elt Ideal)) (x2 : (⟨S1, .f32⟩ : BufTy).Contents (Elt Ideal)) (x3 : (⟨S1x518, .f32⟩ : BufTy).Contents (Elt Ideal)) (x4 : (⟨S518, .f32⟩ : BufTy).Contents (Elt Ideal))

/-- A 1 x 1 array made a scalar holds its one entry. -/
theorem scalar_of_1x1 (x : (⟨S1x1, .f32⟩ : BufTy).Contents (Elt Ideal)) (j : S_.Idx) : shapeCast S_ x shapeCasts_S1x1_S_ j = x (ix2 (0 : Fin 1) (0 : Fin 1)) :=
  shapeCast_apply x shapeCasts_S1x1_S_ j _ (by
    have h1 : (S1x1.rowMajor (ix2 (0 : Fin 1) (0 : Fin 1))).val < 1 := (S1x1.rowMajor _).isLt
    have h2 : (S_.rowMajor j).val < 1 := (S_.rowMajor j).isLt
    show (S1x1.rowMajor (ix2 (0 : Fin 1) (0 : Fin 1))).val = (S_.rowMajor j).val
    omega)

/-- A length-1 array made a scalar holds its one entry. -/
theorem scalar_of_1 (x : (⟨S1, .f32⟩ : BufTy).Contents (Elt Ideal)) (j : S_.Idx) : shapeCast S_ x shapeCasts_S1_S_ j = x (ix1 (0 : Fin 1)) :=
  shapeCast_apply x shapeCasts_S1_S_ j _ (by
    have h1 : (S1.rowMajor (ix1 (0 : Fin 1))).val < 1 := (S1.rowMajor _).isLt
    have h2 : (S_.rowMajor j).val < 1 := (S_.rowMajor j).isLt
    show (S1.rowMajor (ix1 (0 : Fin 1))).val = (S_.rowMajor j).val
    omega)

/-- The first layer at a row. -/
theorem hid_at (j : S4096x1.Idx) : val_main_v5 (F := Ideal) x0 x1 x2 j = hid x0 x1 x2 (j 0) := by
  rw [val_main_v5_apply, val_main_v4_apply, val_main_v1_apply, val_main_v3_apply, val_main_v2_apply, val_main_call0_v0_apply,
    val_main_call0_cst_apply]
  simp only [val_main_v0_apply]
  unfold hid
  have e0 : ∀ k : Fin 6400, idx_main_v0 (lidx_main_v1 j k) = pix (j 0) k := fun k => funext fun a => Fin.ext (by
    have hk : k.val < 6400 := k.isLt
    match a with
    | ⟨0, _⟩ => show ((j 0).val * 6400 + k.val) / 6400 = (j 0).val; omega
    | ⟨1, _⟩ => show ((j 0).val * 6400 + k.val) / 80 % 80 = k.val / 80; omega
    | ⟨2, _⟩ => show ((j 0).val * 6400 + k.val) / 1 % 80 = k.val % 80; omega
    | ⟨3, _⟩ => rfl)
  have e1 : ∀ k : Fin 6400, ridx_main_v1 j k = ix2 k (0 : Fin 1) := fun k => funext fun a => Fin.ext (by
    match a with
    | ⟨0, _⟩ => rfl
    | ⟨1, _⟩ => show (j 1).val = 0; have h : (j 1).val < 1 := (j 1).isLt; omega)
  have e2 : idx_main_v2 (idx_main_v3 j) = ix1 (0 : Fin 1) := funext fun a => Fin.ext (by match a with | ⟨0, _⟩ => rfl)
  simp only [e0, e1, e2]
  rfl

/-- The second layer at an entry. -/
theorem lay2_at (j : S4096x518.Idx) : val_main_v10 (F := Ideal) x0 x1 x2 x3 x4 j = lay2 x3 x4 (hid x0 x1 x2 (j 0)) (j 1) := by
  rw [val_main_v10_apply, val_main_v9_apply, val_main_v6_apply, val_main_v8_apply, val_main_v7_apply, val_main_call1_v0_apply,
    val_main_call1_cst_apply, Fin.sum_univ_one, hid_at]
  unfold lay2
  have e1 : ridx_main_v6 j (0 : Fin 1) = ix2 (0 : Fin 1) (j 1) := funext fun a => Fin.ext (by
    match a with
    | ⟨0, _⟩ => rfl
    | ⟨1, _⟩ => rfl)
  have e2 : idx_main_v7 (idx_main_v8 j) = ix1 (j 1) := funext fun a => Fin.ext (by match a with | ⟨0, _⟩ => rfl)
  simp only [e1, e2]
  rfl

variable (x5 : (⟨S1x1, .f32⟩ : BufTy).Contents (Elt Ideal)) (x6 : (⟨S1, .f32⟩ : BufTy).Contents (Elt Ideal)) (x7 : (⟨S1x80, .f32⟩ : BufTy).Contents (Elt Ideal)) (x8 : (⟨S80, .f32⟩ : BufTy).Contents (Elt Ideal))
variable (x9 : (⟨S1x1, .f32⟩ : BufTy).Contents (Elt Ideal)) (x10 : (⟨S1, .f32⟩ : BufTy).Contents (Elt Ideal)) (x11 : (⟨S1x513, .f32⟩ : BufTy).Contents (Elt Ideal)) (x12 : (⟨S513, .f32⟩ : BufTy).Contents (Elt Ideal))

/-- Head A's table in the reference: entry (i, q) of the 64 x 80 result reads row 64 i, unit 1 of the second layer. -/
theorem tableA_eq : val_main_v31 (F := Ideal) x0 x1 x2 x3 x4 x5 x6 x7 x8 = tableA x0 x1 x2 x3 x4 x5 x6 x7 x8 := by
  funext j
  have h0 : (j 0).val < 64 := (j 0).isLt
  have h1 : (j 1).val < 80 := (j 1).isLt
  simp only [val_main_v31_apply, val_main_v30_apply, val_main_v29_apply, val_main_v28_apply, val_main_v25_apply, val_main_v23_apply,
    val_main_v20_apply, val_main_v19_apply, val_main_v18_apply, val_main_v15_apply, val_main_v12_apply, val_main_v11_apply, lay2_at,
    val_main_v14_apply, val_main_v17_apply, val_main_call2_v0_apply, val_main_call2_cst_apply, val_main_v24_apply, val_main_v22_apply,
    val_main_v21_apply, val_main_v27_apply, val_main_v26_apply, val_main_call3_v0_apply, val_main_call3_cst_apply]
  unfold val_main_v13 val_main_v16
  rw [scalar_of_1x1, scalar_of_1]
  unfold tableA head
  have eR : (idx_main_v11 (idx_main_v12 (idx_main_v20 (idx_main_v23 (idx_main_v30 (idx_main_v31 j)))))) 0
      = (⟨64 * (j 0).val, by omega⟩ : Fin 4096) := Fin.ext (by
    show ((((j 0).val * 80 + (j 1).val) / 80) * 4096 + (1 + 0)) / 64 = 64 * (j 0).val; omega)
  have eC : (idx_main_v11 (idx_main_v12 (idx_main_v20 (idx_main_v23 (idx_main_v30 (idx_main_v31 j)))))) 1 = (1 : Fin 518) := Fin.ext (by
    show ((((j 0).val * 80 + (j 1).val) / 80) * 4096 + (1 + 0)) % 64 = 1; omega)
  have eW : idx_main_v21 (idx_main_v22 (idx_main_v24 (idx_main_v30 (idx_main_v31 j)))) = ix2 (0 : Fin 1) (j 1) := funext fun a => Fin.ext (by
    match a with
    | ⟨0, _⟩ => rfl
    | ⟨1, _⟩ => show (((j 0).val * 80 + (j 1).val) % 80) % 80 = (j 1).val; omega)
  have eB : idx_main_v26 (idx_main_v27 (idx_main_v30 (idx_main_v31 j))) = ix1 (j 1) := funext fun a => Fin.ext (by
    match a with
    | ⟨0, _⟩ => show ((j 0).val * 80 + (j 1).val) % 80 = (j 1).val; omega)
  rw [eR, eC, eW, eB]
  rfl

/-- Head B's table in the reference: entry (i, q) of the 6 x 513 result reads flat position 4096 i + 1 of the 4096 x 6 slice. -/
theorem tableB_eq : val_main_v57 (F := Ideal) x0 x1 x2 x3 x4 x9 x10 x11 x12 = tableB x0 x1 x2 x3 x4 x9 x10 x11 x12 := by
  funext j
  obtain ⟨p, q, rfl⟩ : ∃ (p : Fin 6) (q : Fin 513), j = ix2 p q := ⟨j 0, j 1, eq_ix2 j⟩
  have hq : q.val < 513 := q.isLt
  simp only [val_main_v57_apply, val_main_v56_apply, val_main_v55_apply, val_main_v54_apply, val_main_v51_apply, val_main_v49_apply,
    val_main_v46_apply, val_main_v45_apply, val_main_v44_apply, val_main_v41_apply, val_main_v38_apply, val_main_v37_apply, lay2_at,
    val_main_v40_apply, val_main_v43_apply, val_main_call4_v0_apply, val_main_call4_cst_apply, val_main_v50_apply, val_main_v48_apply,
    val_main_v47_apply, val_main_v53_apply, val_main_v52_apply, val_main_call5_v0_apply, val_main_call5_cst_apply]
  unfold val_main_v39 val_main_v42
  rw [scalar_of_1x1, scalar_of_1]
  unfold tableB head
  have eR : (idx_main_v37 (idx_main_v38 (idx_main_v46 (idx_main_v49 (idx_main_v56 (idx_main_v57 (ix2 p q))))))) 0 = rowB p := Fin.ext (by
    show (((p.val * 513 + q.val) / 513) * 4096 + (1 + 0)) / 6 = (rowB p).val
    rw [rowB_val p]; have hp : p.val < 6 := p.isLt; omega)
  have eC : (idx_main_v37 (idx_main_v38 (idx_main_v46 (idx_main_v49 (idx_main_v56 (idx_main_v57 (ix2 p q))))))) 1 = unitB p := Fin.ext (by
    show 64 + (((p.val * 513 + q.val) / 513) * 4096 + (1 + 0)) % 6 = (unitB p).val
    rw [unitB_val p]; have hp : p.val < 6 := p.isLt; omega)
  have eW : idx_main_v47 (idx_main_v48 (idx_main_v50 (idx_main_v56 (idx_main_v57 (ix2 p q))))) = ix2 (0 : Fin 1) q := funext fun a => Fin.ext (by
    match a with
    | ⟨0, _⟩ => rfl
    | ⟨1, _⟩ => show ((p.val * 513 + q.val) % 513) % 513 = q.val; have hp : p.val < 6 := p.isLt; omega)
  have eB : idx_main_v52 (idx_main_v53 (idx_main_v56 (idx_main_v57 (ix2 p q)))) = ix1 q := funext fun a => Fin.ext (by
    match a with
    | ⟨0, _⟩ => show (p.val * 513 + q.val) % 513 = q.val; have hp : p.val < 6 := p.isLt; omega)
  rw [eR, eC, eW, eB]
  rfl

end Cert.ReferenceIdeal.RefRead

end
-- ==== Proof.lean ====
/-
  The kernel program against its reference, on the extended reals.

  The reference flattens 4096 frames, puts every frame through a one-unit first layer and a 518-unit second layer, and
  then reads only a few entries: a 4096 x 64 slice reshaped to 64 x 4096 is read in column 1, which is row 64 i and unit 1
  of the second layer; a 4096 x 6 slice reshaped to 6 x 4096 is read in column 1, which is flat position 4096 i + 1 of a
  table six wide, that is rows 0, 682, 1365, 2048, 2730, 3413 and units 65, 69, 67, 65, 69, 67. The kernel program gathers
  exactly the frames those entries depend on (frames 64 i for i < 64, and 682, 1365, 2730, 3413), computes the first layer
  on them in one kernel region, and applies the second layer and the two heads to the gathered rows only. Index by index
  both results are the same function of the same entries of the arguments: a sum over the 6400 entries of a frame, a
  clamp at zero, and products and sums of single entries; no law of the extended reals beyond rewriting each side to
  that common form is used, so the finiteness of the inputs is not needed.

  The three frames are the runs: the kernel program's region and its two host stretches (the same text at the word-level
  and at the ideal values), and the reference's straight line of host operations. The idealization rewrote nothing, so
  there is nothing to preserve.
-/
import proofs.«170850_j55181739819745_2_alg».proof.Defs
import proofs.«170850_j55181739819745_2_alg».proof.Proof.Gen.Kernel
import proofs.«170850_j55181739819745_2_alg».proof.Proof.Gen.KernelIdeal
import proofs.«170850_j55181739819745_2_alg».proof.Proof.Gen.ReferenceIdeal
import proofs.«170850_j55181739819745_2_alg».proof.Proof.Gen.ReferenceIdeal.Run
import proofs.«170850_j55181739819745_2_alg».proof.Proof.Gen.ReferenceIdeal.Read
import proofs.«170850_j55181739819745_2_alg».proof.Proof.Gen.Pre_finite_inputs
import proofs.«170850_j55181739819745_2_alg».proof.Proof.FrameBits
import proofs.«170850_j55181739819745_2_alg».proof.Proof.FrameIdeal
import proofs.«170850_j55181739819745_2_alg».proof.Proof.KernelValue
import proofs.«170850_j55181739819745_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_reference : Cert.frame_ReferenceIdeal := fun m ρ _ =>
  (θ_run Cert.ReferenceIdeal.defs _ _).mono (fun _ h c => (h c).2) (Cert.ReferenceIdeal.Value.run (F := Ideal) m ρ)

/-- The reference's result is the two tables of its arguments joined: its last operations flatten head A's table and
    repeat it 80 times, append 64 zeros and head B's flattened table, exactly as the kernel program's do. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v59 (F := Ideal) m' c
      = Cert.KernelIdeal.Tail.joined (F := Ideal)
          (Cert.Spec.tableA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))
          (Cert.Spec.tableB (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))) := by
  rw [Cert.ReferenceIdeal.Read.val_main_v59_eq]
  have hjoin : Cert.ReferenceIdeal.Read.val_main_v59 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = Cert.KernelIdeal.Tail.joined (F := Ideal)
          (Cert.ReferenceIdeal.Read.val_main_v31 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))
          (Cert.ReferenceIdeal.Read.val_main_v57 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))) := rfl
  rw [hjoin, Cert.ReferenceIdeal.RefRead.tableA_eq, Cert.ReferenceIdeal.RefRead.tableB_eq]

theorem algebraic : Cert.algebraic_KernelIdeal_ReferenceIdeal := by
  intro m ρ m' ρ' _ hagree
  refine ⟨fun c => Cert.KernelIdeal.Tail.joined (F := Ideal)
      (Cert.Spec.tableA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (Cert.Spec.tableB (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [reference_result m' c]
  obtain ⟨e0, e1, e2, e3, e4, e5, e6, e7, e8, e9, e10, e11, e12⟩ := hagree c
  rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
